-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S_ : Shape := ⟨0, ![]⟩
abbrev S192x256 : Shape := ⟨2, ![192, 256]⟩
abbrev S256 : Shape := ⟨1, ![256]⟩
abbrev S256x128 : Shape := ⟨2, ![256, 128]⟩
abbrev S256x256 : Shape := ⟨2, ![256, 256]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  reducesTo_S_S_d : S_.ReducesTo [] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg17 : FVec F S128 .f32) (main_v66 : IVec S_ 1) (main_v67 : FVec F S256x128 .f32) : IVec S_ 1 :=
  let main_cst_26 : FVec F S_ .f32 := constant S_ .f32 0x7F800000#32
  let main_v68 : FVec F S256x128 .f32 := broadcastInDim S256x128 ![] bcast_S_S256x128 main_cst_26
  let main_v69 : IVec S256x128 1 := cmpf .olt main_v67 main_v68
  let main_c_27 : IVec S_ 1 := constantI S_ 1 1#1
  let main_v70 : IVec S_ 1 := (fun x v => Host.reduce IntOp.andi x v reducesTo_S256x128_S_d0_1 h_S_) main_v69 main_c_27
  let main_v71 : IVec S_ 1 := andi main_v66 main_v70
  let main_v72 : FVec F S128 .f32 := Host.absf main_arg17
  let main_cst_28 : FVec F S_ .f32 := constant S_ .f32 0x7F800000#32
  let main_v73 : FVec F S128 .f32 := broadcastInDim S128 ![] bcast_S_S128 main_cst_28
  let main_v74 : IVec S128 1 := cmpf .olt main_v72 main_v73
  let main_c_29 : IVec S_ 1 := constantI S_ 1 1#1
  let main_v75 : IVec S_ 1 := (fun x v => Host.reduce IntOp.andi x v reducesTo_S128_S_d0 h_S_) main_v74 main_c_29
  let main_v76 : IVec S_ 1 := andi main_v71 main_v75
  main_v76

def fn_part3 {F : FTy → Type} [FloatOps F] (main_arg13 : FVec F S128 .f32) (main_arg14 : FVec F S256x256 .f32) (main_arg15 : FVec F S256 .f32) (main_arg16 : FVec F S256x128 .f32) (main_arg17 : FVec F S128 .f32) (main_v46 : IVec S_ 1) (main_v49 : IVec S256x128 1) (main_c_19 : IVec S_ 1) : IVec S_ 1 :=
  let main_v50 : IVec S_ 1 := (fun x v => Host.reduce IntOp.andi x v reducesTo_S256x128_S_d0_1 h_S_) main_v49 main_c_19
  let main_v51 : IVec S_ 1 := andi main_v46 main_v50
  let main_v52 : FVec F S128 .f32 := Host.absf main_arg13
  let main_cst_20 : FVec F S_ .f32 := constant S_ .f32 0x7F800000#32
  let main_v53 : FVec F S128 .f32 := broadcastInDim S128 ![] bcast_S_S128 main_cst_20
  let main_v54 : IVec S128 1 := cmpf .olt main_v52 main_v53
  let main_c_21 : IVec S_ 1 := constantI S_ 1 1#1
  let main_v55 : IVec S_ 1 := (fun x v => Host.reduce IntOp.andi x v reducesTo_S128_S_d0 h_S_) main_v54 main_c_21
  let main_v56 : IVec S_ 1 := andi main_v51 main_v55
  let main_v57 : FVec F S256x256 .f32 := Host.absf main_arg14
  let main_cst_22 : FVec F S_ .f32 := constant S_ .f32 0x7F800000#32
  let main_v58 : FVec F S256x256 .f32 := broadcastInDim S256x256 ![] bcast_S_S256x256 main_cst_22
  let main_v59 : IVec S256x256 1 := cmpf .olt main_v57 main_v58
  let main_c_23 : IVec S_ 1 := constantI S_ 1 1#1
  let main_v60 : IVec S_ 1 := (fun x v => Host.reduce IntOp.andi x v reducesTo_S256x256_S_d0_1 h_S_) main_v59 main_c_23
  let main_v61 : IVec S_ 1 := andi main_v56 main_v60
  let main_v62 : FVec F S256 .f32 := Host.absf main_arg15
  let main_cst_24 : FVec F S_ .f32 := constant S_ .f32 0x7F800000#32
  let main_v63 : FVec F S256 .f32 := broadcastInDim S256 ![] bcast_S_S256 main_cst_24
  let main_v64 : IVec S256 1 := cmpf .olt main_v62 main_v63
  let main_c_25 : IVec S_ 1 := constantI S_ 1 1#1
  let main_v65 : IVec S_ 1 := (fun x v => Host.reduce IntOp.andi x v reducesTo_S256_S_d0 h_S_) main_v64 main_c_25
  let main_v66 : IVec S_ 1 := andi main_v61 main_v65
  let main_v67 : FVec F S256x128 .f32 := Host.absf main_arg16
  fn_part4 (F := F) main_arg17 main_v66 main_v67

def fn_part2 {F : FTy → Type} [FloatOps F] (main_arg10 : FVec F S192x256 .f32) (main_arg11 : FVec F S256 .f32) (main_arg12 : FVec F S256x128 .f32) (main_arg13 : FVec F S128 .f32) (main_arg14 : FVec F S256x256 .f32) (main_arg15 : FVec F S256 .f32) (main_arg16 : FVec F S256x128 .f32) (main_arg17 : FVec F S128 .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S192x256 .f32 := Host.absf main_arg10
  let main_cst_14 : FVec F S_ .f32 := constant S_ .f32 0x7F800000#32
  let main_v38 : FVec F S192x256 .f32 := broadcastInDim S192x256 ![] bcast_S_S192x256 main_cst_14
  let main_v39 : IVec S192x256 1 := cmpf .olt main_v37 main_v38
  let main_c_15 : IVec S_ 1 := constantI S_ 1 1#1
  let main_v40 : IVec S_ 1 := (fun x v => Host.reduce IntOp.andi x v reducesTo_S192x256_S_d0_1 h_S_) main_v39 main_c_15
  let main_v41 : IVec S_ 1 := andi main_v36 main_v40
  let main_v42 : FVec F S256 .f32 := Host.absf main_arg11
  let main_cst_16 : FVec F S_ .f32 := constant S_ .f32 0x7F800000#32
  let main_v43 : FVec F S256 .f32 := broadcastInDim S256 ![] bcast_S_S256 main_cst_16
  let main_v44 : IVec S256 1 := cmpf .olt main_v42 main_v43
  let main_c_17 : IVec S_ 1 := constantI S_ 1 1#1
  let main_v45 : IVec S_ 1 := (fun x v => Host.reduce IntOp.andi x v reducesTo_S256_S_d0 h_S_) main_v44 main_c_17
  let main_v46 : IVec S_ 1 := andi main_v41 main_v45
  let main_v47 : FVec F S256x128 .f32 := Host.absf main_arg12
  let main_cst_18 : FVec F S_ .f32 := constant S_ .f32 0x7F800000#32
  let main_v48 : FVec F S256x128 .f32 := broadcastInDim S256x128 ![] bcast_S_S256x128 main_cst_18
  let main_v49 : IVec S256x128 1 := cmpf .olt main_v47 main_v48
  let main_c_19 : IVec S_ 1 := constantI S_ 1 1#1
  fn_part3 (F := F) main_arg13 main_arg14 main_arg15 main_arg16 main_arg17 main_v46 main_v49 main_c_19

def fn_part1 {F : FTy → Type} [FloatOps F] (main_arg6 : FVec F S64x128 .f32) (main_arg7 : FVec F S128 .f32) (main_arg8 : FVec F S_ .f32) (main_arg9 : FVec F S_ .f32) (main_arg10 : FVec F S192x256 .f32) (main_arg11 : FVec F S256 .f32) (main_arg12 : FVec F S256x128 .f32) (main_arg13 : FVec F S128 .f32) (main_arg14 : FVec F S256x256 .f32) (main_arg15 : FVec F S256 .f32) (main_arg16 : FVec F S256x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S_ .f32 := Host.absf main_arg8
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg9
  fn_part2 (F := F) main_arg10 main_arg11 main_arg12 main_arg13 main_arg14 main_arg15 main_arg16 main_arg17 main_v32 main_v33

def fn {F : FTy → Type} [FloatOps F] (main_arg0 : FVec F S50000x128 .f32) (main_arg1 : FVec F S50000x64 .f32) (main_arg2 : IVec S2x600000 32) (main_arg3 : IVec S2x600000 32) (main_arg4 : FVec F S128x128 .f32) (main_arg5 : FVec F S128 .f32) (main_arg6 : FVec F S64x128 .f32) (main_arg7 : FVec F S128 .f32) (main_arg8 : FVec F S_ .f32) (main_arg9 : FVec F S_ .f32) (main_arg10 : FVec F S192x256 .f32) (main_arg11 : FVec F S256 .f32) (main_arg12 : FVec F S256x128 .f32) (main_arg13 : FVec F S128 .f32) (main_arg14 : FVec F S256x256 .f32) (main_arg15 : FVec F S256 .f32) (main_arg16 : FVec F S256x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S50000x64 : Shape := ⟨2, ![50000, 64]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S_ : Shape := ⟨0, ![]⟩
abbrev S192x256 : Shape := ⟨2, ![192, 256]⟩
abbrev S256 : Shape := ⟨1, ![256]⟩
abbrev S256x128 : Shape := ⟨2, ![256, 128]⟩
abbrev S256x256 : Shape := ⟨2, ![256, 256]⟩
abbrev S1x128 : Shape := ⟨2, ![1, 128]⟩
abbrev S2000x128 : Shape := ⟨2, ![2000, 128]⟩
abbrev S2000x64 : Shape := ⟨2, ![2000, 64]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S50000x192 : Shape := ⟨2, ![50000, 192]⟩
abbrev S1x256 : Shape := ⟨2, ![1, 256]⟩
abbrev S2000x192 : Shape := ⟨2, ![2000, 192]⟩
abbrev S2000x256 : Shape := ⟨2, ![2000, 256]⟩
abbrev S50000x256 : Shape := ⟨2, ![50000, 256]⟩

abbrev nBuf : Space → Nat
  | .hbm => 72
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S192x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S1x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S1x600000, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S1x600000, .i32⟩
  | .hbm, ⟨34, _⟩ => ⟨S600000, .i32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S1x600000, .i32⟩
  | .hbm, ⟨40, _⟩ => ⟨S600000, .i32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S1x600000, .i32⟩
  | .hbm, ⟨51, _⟩ => ⟨S600000, .i32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S_, .f32⟩
  | .hbm, ⟨57, _⟩ => ⟨S_, .f32⟩
  | .hbm, ⟨58, _⟩ => ⟨S50000x64, .f32⟩
  | .hbm, ⟨59, _⟩ => ⟨S50000x64, .f32⟩
  | .hbm, ⟨60, _⟩ => ⟨S50000x192, .f32⟩
  | .hbm, ⟨61, _⟩ => ⟨S1x256, .f32⟩
  | .hbm, ⟨62, _⟩ => ⟨S1x128, .f32⟩
  | .hbm, ⟨63, _⟩ => ⟨S50000x128, .f32⟩
  | .hbm, ⟨64, _⟩ => ⟨S_, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x256, .f32⟩
  | .hbm, ⟨69, _⟩ => ⟨S1x256, .f32⟩
  | .hbm, ⟨70, _⟩ => ⟨S1x128, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x64, .f32⟩
  | .local _ .vmem, ⟨7, _⟩ => ⟨S2000x64, .f32⟩
  | .local _ .vmem, ⟨8, _⟩ => ⟨S64x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x192, .f32⟩
  | .local _ .vmem, ⟨13, _⟩ => ⟨S2000x192, .f32⟩
  | .local _ .vmem, ⟨14, _⟩ => ⟨S192x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S50000x64 : S_.BroadcastsInDim S50000x64 (![] : Fin 0 → Fin S50000x64.rank)
  concatenates_S50000x64_S50000x128_S50000x192_d1 : Shape.Concatenates [S50000x64, S50000x128] S50000x192 1
  shapeCasts_S256_S1x256 : S256.ShapeCasts S1x256
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S192x256_S192x256_0_0 : ∀ a, (![0, 0] : Fin 2 → Nat) a + S192x256.size a ≤ S192x256.size a
  h_S192x256 : 0 < S192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  concatenates_S50000x128_S50000x128_S50000x256_d1 : Shape.Concatenates [S50000x128, S50000x128] S50000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x192_S192x256_S2000x256_1_0_0_1_n_n_wf : DotDims.WF S2000x192 S192x256 S2000x256 [1] [0] [0] [1] [] []
  dot_S2000x256_S256x128_S2000x128_1_0_0_1_n_n_wf : DotDims.WF S2000x256 S256x128 S2000x128 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S50000x192.size a
  hwx2_0 : ∀ i : grid2.Coords, EltTy.bits .f32 = 32 ∨ (Rect.block (s := S50000x192) S2000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x256.size a ≤ S192x256.size a
  hwx2_1 : ∀ i : grid2.Coords, EltTy.bits .f32 = 32 ∨ (Rect.block (s := S192x256) S192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x192_S192x256_S2000x256_1_0_0_1_n_n : DotDims S2000x192 S192x256 S2000x256 where
  lhsContracting := [1]
  rhsContracting := [0]
  lhsNonContracting := [0]
  rhsNonContracting := [1]
  lhsBatch := []
  rhsBatch := []
  wf := dot_S2000x192_S192x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S_ : Shape := ⟨0, ![]⟩
abbrev S192x256 : Shape := ⟨2, ![192, 256]⟩
abbrev S256 : Shape := ⟨1, ![256]⟩
abbrev S256x128 : Shape := ⟨2, ![256, 128]⟩
abbrev S256x256 : Shape := ⟨2, ![256, 256]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S50000x192 : Shape := ⟨2, ![50000, 192]⟩
abbrev S50000x256 : Shape := ⟨2, ![50000, 256]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S192x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S1x600000, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S1x600000, .i32⟩
  | .hbm, ⟨34, _⟩ => ⟨S600000, .i32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S50000x192, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x600000, .i32⟩
  | .hbm, ⟨60, _⟩ => ⟨S600000, .i32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S1x600000, .i32⟩
  | .hbm, ⟨71, _⟩ => ⟨S600000, .i32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S_, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x256, .f32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_3 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S50000x64 : S_.BroadcastsInDim S50000x64 (![] : Fin 0 → Fin S50000x64.rank)
  concatenates_S50000x64_S50000x128_S50000x192_d1 : Shape.Concatenates [S50000x64, S50000x128] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x192_S192x256_S50000x256_1_0_0_1_n_n_wf : DotDims.WF S50000x192 S192x256 S50000x256 [1] [0] [0] [1] [] []
  dot_S50000x256_S256x128_S50000x128_1_0_0_1_n_n_wf : DotDims.WF S50000x256 S256x128 S50000x128 [1] [0] [0] [1] [] []
  dot_S50000x64_S64x128_S50000x128_1_0_0_1_n_n_wf : DotDims.WF S50000x64 S64x128 S50000x128 [1] [0] [0] [1] [] []
  dot_S50000x256_S256x256_S50000x256_1_0_0_1_n_n_wf : DotDims.WF S50000x256 S256x256 S50000x256 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
import proofs.«130959_j20590073217561_1_alg».proof.Proof.Gen.KernelIdeal.Frame
import Idealize.ShloMosaic.Lib.StableHlo.Run

/-! The run of the idealized kernel program with its two result arrays kept, and the contents each region is
    entered with — and each result — read back through the host operations to the launch memory. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores terminates without a fault, and in every final
    state each core's two result arrays hold the last boundary's contents and each argument array holds what it
    was launched with. -/
theorem run_results : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

/-! ## The host operations between the regions, as pure functions -/

/-- The messages gathered along the edges' sources (a negative source index wrapped by the row count) from the
    node features `a`, and summed into the edges' targets over a zero array. -/
def edgeAgg (a : (⟨S50000x128, .f32⟩ : BufTy).Contents (Elt F)) (E : (⟨S2x600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0
      (shapeCast _ (extractStridedSlice S1x600000 ![1, 0] E slices_S2x600000_S1x600000_1_0) shapeCasts_S1x600000_S600000))
    (Host.gather gather_S50000x128_S600000x1_S600000x128_1_0_n_n_0_1_1128 a
      (broadcastInDim S600000x1 ![0] bcast_S600000_S600000x1_0
        (select (cmpi .slt (shapeCast _ (extractStridedSlice S1x600000 ![0, 0] E slices_S2x600000_S1x600000_0_0) shapeCasts_S1x600000_S600000) (broadcastInDim S600000 ![] bcast_S_S600000 (constantI S_ 32 0#32)))
          (addi (shapeCast _ (extractStridedSlice S1x600000 ![0, 0] E slices_S2x600000_S1x600000_0_0) shapeCasts_S1x600000_S600000) (broadcastInDim S600000 ![] bcast_S_S600000 (constantI S_ 32 50000#32)))
          (shapeCast _ (extractStridedSlice S1x600000 ![0, 0] E slices_S2x600000_S1x600000_0_0) shapeCasts_S1x600000_S600000))))

/-- The 64-column features scaled by `1 + eps`, with the 128-column aggregate appended along the columns. -/
def hcat64 (eps : (⟨S_, .f32⟩ : BufTy).Contents (Elt F)) (x : (⟨S50000x64, .f32⟩ : BufTy).Contents (Elt F)) (agg : (⟨S50000x128, .f32⟩ : BufTy).Contents (Elt F)) : (⟨S50000x192, .f32⟩ : BufTy).Contents (Elt F) :=
  concatenate S50000x192 1 [⟨S50000x64, mulf (broadcastInDim S50000x64 ![] bcast_S_S50000x64 (addf (constant (F := F) S_ .f32 0x3F800000#32) eps)) x⟩, ⟨S50000x128, agg⟩] concatenates_S50000x64_S50000x128_S50000x192_d1

/-- The 128-column features scaled by `1 + eps`, with the 128-column aggregate appended along the columns. -/
def hcat128 (eps : (⟨S_, .f32⟩ : BufTy).Contents (Elt F)) (x : (⟨S50000x128, .f32⟩ : BufTy).Contents (Elt F)) (agg : (⟨S50000x128, .f32⟩ : BufTy).Contents (Elt F)) : (⟨S50000x256, .f32⟩ : BufTy).Contents (Elt F) :=
  concatenate S50000x256 1 [⟨S50000x128, mulf (broadcastInDim S50000x128 ![] bcast_S_S50000x128 (addf (constant (F := F) S_ .f32 0x3F800000#32) eps)) x⟩, ⟨S50000x128, agg⟩] concatenates_S50000x128_S50000x128_S50000x256_d1

/-! ## The contents walked back through the fold -/

/-! ### Region 0's entry contents -/

/-- Buffer `main_arg0` is as launched when region 0 is entered. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- Buffer `main_arg4` is as launched when region 0 is entered. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Region 0 is entered with its first operand as launched. -/
theorem V1_arg0 (c : Dev nD) : V1 m ρ c main_arg0 = m ((c : Thread nD τ).loc main_arg0) := W1_arg0 m ρ c
/-- Region 0 is entered with its weight matrix as launched. -/
theorem V1_arg4 (c : Dev nD) : V1 m ρ c main_arg4 = m ((c : Thread nD τ).loc main_arg4) := W1_arg4 m ρ c
/-- Region 0 is entered with its bias row holding the launched bias vector, read as a one-row matrix. -/
theorem V1_v0 (c : Dev nD) : V1 m ρ c main_v0 = shapeCast S1x128 (m ((c : Thread nD τ).loc main_arg5)) shapeCasts_S128_S1x128 := by
  show StableHlo.after hostOps0 (W0 m ρ c) (Proc.devRef .tc main_v0) = _
  after_results
  rfl

/-! ### Region 1's entry contents -/

/-- Buffer `main_arg1` is as launched when region 0 is entered. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- Buffer `main_arg1` is as launched when region 0 is left. -/
theorem W2_arg1 (c : Dev nD) : W2 m ρ c (Proc.devRef .tc main_arg1) = m ((c : Thread nD τ).loc main_arg1) :=
  (W2_of_ne m ρ c main_arg1 (by decide)).trans (W1_arg1 m ρ c)
/-- Buffer `main_arg1` is as launched when region 1 is entered. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_arg1 m ρ c
/-- Buffer `main_arg6` is as launched when region 0 is entered. -/
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
/-- Buffer `main_arg6` is as launched when region 0 is left. -/
theorem W2_arg6 (c : Dev nD) : W2 m ρ c (Proc.devRef .tc main_arg6) = m ((c : Thread nD τ).loc main_arg6) :=
  (W2_of_ne m ρ c main_arg6 (by decide)).trans (W1_arg6 m ρ c)
/-- Buffer `main_arg6` is as launched when region 1 is entered. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_arg6 m ρ c
/-- Buffer `main_arg7` is as launched when region 0 is entered. -/
theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
/-- Buffer `main_arg7` is as launched when region 0 is left. -/
theorem W2_arg7 (c : Dev nD) : W2 m ρ c (Proc.devRef .tc main_arg7) = m ((c : Thread nD τ).loc main_arg7) :=
  (W2_of_ne m ρ c main_arg7 (by decide)).trans (W1_arg7 m ρ c)

/-- Region 1 is entered with its first operand as launched. -/
theorem V3_arg1 (c : Dev nD) : V3 m ρ c main_arg1 = m ((c : Thread nD τ).loc main_arg1) := W3_arg1 m ρ c
/-- Region 1 is entered with its weight matrix as launched. -/
theorem V3_arg6 (c : Dev nD) : V3 m ρ c main_arg6 = m ((c : Thread nD τ).loc main_arg6) := W3_arg6 m ρ c
/-- Region 1 is entered with its bias row holding the launched bias vector, read as a one-row matrix. -/
theorem V3_v2 (c : Dev nD) : V3 m ρ c main_v2 = shapeCast S1x128 (m ((c : Thread nD τ).loc main_arg7)) shapeCasts_S128_S1x128 := by
  show StableHlo.after hostOps1 (W2 m ρ c) (Proc.devRef .tc main_v2) = _
  after_results
  rw [W2_arg7 m ρ c]
  rfl

/-! ### The two results -/

/-- The last region's output array holds what its pipeline's write-backs leave. -/
theorem out_user (c : Dev nD) : W8 m ρ c (Proc.devRef .tc main_v45) = (dat3 (V7 m ρ) c).arrAt 5 cfg3.N :=
  W8_arr m ρ c 5

/-- Region 2's output array holds, at the end, what that region's write-backs left: neither the last stretch of
    host operations nor the last region writes it. -/
theorem out_tx (c : Dev nD) : W8 m ρ c (Proc.devRef .tc main_v38) = (dat2 (V5 m ρ) c).arrAt 5 cfg2.N :=
  calc W8 m ρ c (Proc.devRef .tc main_v38)
    _ = W7 m ρ c (Proc.devRef .tc main_v38) := W8_of_ne m ρ c main_v38 (by decide)
    _ = W6 m ρ c (Proc.devRef .tc main_v38) := StableHlo.after_of_forall_not_mem (b := Proc.devRef .tc main_v38) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat2 (V5 m ρ) c).arrAt 5 cfg2.N := W6_arr m ρ c 5

/-! ### Region 2's entry contents -/

/-- Buffer `main_arg10` is as launched when region 0 is entered. -/
theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-- Buffer `main_arg10` is as launched when region 0 is left. -/
theorem W2_arg10 (c : Dev nD) : W2 m ρ c (Proc.devRef .tc main_arg10) = m ((c : Thread nD τ).loc main_arg10) :=
  (W2_of_ne m ρ c main_arg10 (by decide)).trans (W1_arg10 m ρ c)
/-- Buffer `main_arg10` is as launched when region 1 is entered. -/
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_arg10 m ρ c
/-- Buffer `main_arg10` is as launched when region 1 is left. -/
theorem W4_arg10 (c : Dev nD) : W4 m ρ c (Proc.devRef .tc main_arg10) = m ((c : Thread nD τ).loc main_arg10) :=
  (W4_of_ne m ρ c main_arg10 (by decide)).trans (W3_arg10 m ρ c)
/-- Buffer `main_arg10` is as launched when region 2 is entered. -/
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W4_arg10 m ρ c
/-- Buffer `main_arg12` is as launched when region 0 is entered. -/
theorem W1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
/-- Buffer `main_arg12` is as launched when region 0 is left. -/
theorem W2_arg12 (c : Dev nD) : W2 m ρ c (Proc.devRef .tc main_arg12) = m ((c : Thread nD τ).loc main_arg12) :=
  (W2_of_ne m ρ c main_arg12 (by decide)).trans (W1_arg12 m ρ c)
/-- Buffer `main_arg12` is as launched when region 1 is entered. -/
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W2_arg12 m ρ c
/-- Buffer `main_arg12` is as launched when region 1 is left. -/
theorem W4_arg12 (c : Dev nD) : W4 m ρ c (Proc.devRef .tc main_arg12) = m ((c : Thread nD τ).loc main_arg12) :=
  (W4_of_ne m ρ c main_arg12 (by decide)).trans (W3_arg12 m ρ c)
/-- Buffer `main_arg12` is as launched when region 2 is entered. -/
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W4_arg12 m ρ c
/-- Buffer `main_arg11` is as launched when region 0 is entered. -/
theorem W1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
/-- Buffer `main_arg11` is as launched when region 0 is left. -/
theorem W2_arg11 (c : Dev nD) : W2 m ρ c (Proc.devRef .tc main_arg11) = m ((c : Thread nD τ).loc main_arg11) :=
  (W2_of_ne m ρ c main_arg11 (by decide)).trans (W1_arg11 m ρ c)
/-- Buffer `main_arg11` is as launched when region 1 is entered. -/
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W2_arg11 m ρ c
/-- Buffer `main_arg11` is as launched when region 1 is left. -/
theorem W4_arg11 (c : Dev nD) : W4 m ρ c (Proc.devRef .tc main_arg11) = m ((c : Thread nD τ).loc main_arg11) :=
  (W4_of_ne m ρ c main_arg11 (by decide)).trans (W3_arg11 m ρ c)
/-- Buffer `main_arg13` is as launched when region 0 is entered. -/
theorem W1_arg13 (c : Dev nD) : W1 m ρ c (Proc.devRef .tc main_arg13) = m ((c : Thread nD τ).loc main_arg13) :=
  calc W1 m ρ c (Proc.devRef .tc main_arg13)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
/-- Buffer `main_arg13` is as launched when region 0 is left. -/
theorem W2_arg13 (c : Dev nD) : W2 m ρ c (Proc.devRef .tc main_arg13) = m ((c : Thread nD τ).loc main_arg13) :=
  (W2_of_ne m ρ c main_arg13 (by decide)).trans (W1_arg13 m ρ c)
/-- Buffer `main_arg13` is as launched when region 1 is entered. -/
theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W2_arg13 m ρ c
/-- Buffer `main_arg13` is as launched when region 1 is left. -/
theorem W4_arg13 (c : Dev nD) : W4 m ρ c (Proc.devRef .tc main_arg13) = m ((c : Thread nD τ).loc main_arg13) :=
  (W4_of_ne m ρ c main_arg13 (by decide)).trans (W3_arg13 m ρ c)
/-- Buffer `main_arg8` is as launched when region 0 is entered. -/
theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
/-- Buffer `main_arg8` is as launched when region 0 is left. -/
theorem W2_arg8 (c : Dev nD) : W2 m ρ c (Proc.devRef .tc main_arg8) = m ((c : Thread nD τ).loc main_arg8) :=
  (W2_of_ne m ρ c main_arg8 (by decide)).trans (W1_arg8 m ρ c)
/-- Buffer `main_arg8` is as launched when region 1 is entered. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_arg8 m ρ c
/-- Buffer `main_arg8` is as launched when region 1 is left. -/
theorem W4_arg8 (c : Dev nD) : W4 m ρ c (Proc.devRef .tc main_arg8) = m ((c : Thread nD τ).loc main_arg8) :=
  (W4_of_ne m ρ c main_arg8 (by decide)).trans (W3_arg8 m ρ c)
/-- Buffer `main_arg1` is as launched when region 1 is left. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = m ((c : Thread nD τ).loc main_arg1) := W3_arg1 m ρ c
/-- Buffer `main_arg2` is as launched when region 0 is entered. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- Buffer `main_arg2` is as launched when region 0 is left. -/
theorem W2_arg2 (c : Dev nD) : W2 m ρ c (Proc.devRef .tc main_arg2) = m ((c : Thread nD τ).loc main_arg2) :=
  (W2_of_ne m ρ c main_arg2 (by decide)).trans (W1_arg2 m ρ c)
/-- Buffer `main_arg2` is as launched when region 1 is entered. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_arg2 m ρ c
/-- Buffer `main_arg2` is as launched when region 1 is left. -/
theorem W4_arg2 (c : Dev nD) : W4 m ρ c (Proc.devRef .tc main_arg2) = m ((c : Thread nD τ).loc main_arg2) :=
  (W4_of_ne m ρ c main_arg2 (by decide)).trans (W3_arg2 m ρ c)

/-- Region 0's output array still holds, when region 1 is left, what region 0's write-backs left. -/
theorem W4_v1 (c : Dev nD) : W4 m ρ c (Proc.devRef .tc main_v1) = (dat0 (V1 m ρ) c).arrAt 3 cfg0.N :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

/-- Region 2 is entered with its first operand holding the launched 64-column features scaled by `1 + eps`, beside
    region 0's output gathered along the first edge list's sources and summed into its targets. -/
theorem V5_v35 (c : Dev nD) : V5 m ρ c main_v35 = hcat64 (m ((c : Thread nD τ).loc main_arg8)) (m ((c : Thread nD τ).loc main_arg1)) (edgeAgg ((dat0 (V1 m ρ) c).arrAt 3 cfg0.N) (m ((c : Thread nD τ).loc main_arg2))) := by
  show StableHlo.after hostOps2 (W4 m ρ c) (Proc.devRef .tc main_v35) = _
  after_results_simp
  unfold hcat64
  refine congrArg₂ (fun (a : (⟨S50000x64, .f32⟩ : BufTy).Contents (Elt F)) (b : (⟨S50000x128, .f32⟩ : BufTy).Contents (Elt F)) =>
    concatenate S50000x192 1 [⟨S50000x64, a⟩, ⟨S50000x128, b⟩] concatenates_S50000x64_S50000x128_S50000x192_d1) ?_ ?_
  · after_results_simp
    rw [W4_arg8 m ρ c, W4_arg1 m ρ c]
  · after_results_simp
    rw [W4_arg2 m ρ c, W4_v1 m ρ c]
    unfold edgeAgg
    rfl
/-- Region 2 is entered with its first weight matrix as launched. -/
theorem V5_arg10 (c : Dev nD) : V5 m ρ c main_arg10 = m ((c : Thread nD τ).loc main_arg10) := W5_arg10 m ρ c
/-- Region 2 is entered with its second weight matrix as launched. -/
theorem V5_arg12 (c : Dev nD) : V5 m ρ c main_arg12 = m ((c : Thread nD τ).loc main_arg12) := W5_arg12 m ρ c
/-- Region 2 is entered with its first bias row holding the launched bias vector, read as a one-row matrix. -/
theorem V5_v36 (c : Dev nD) : V5 m ρ c main_v36 = shapeCast S1x256 (m ((c : Thread nD τ).loc main_arg11)) shapeCasts_S256_S1x256 := by
  show StableHlo.after hostOps2 (W4 m ρ c) (Proc.devRef .tc main_v36) = _
  after_results_simp
  rw [W4_arg11 m ρ c]
  rfl
/-- Region 2 is entered with its second bias row holding the launched bias vector, read as a one-row matrix. -/
theorem V5_v37 (c : Dev nD) : V5 m ρ c main_v37 = shapeCast S1x128 (m ((c : Thread nD τ).loc main_arg13)) shapeCasts_S128_S1x128 := by
  show StableHlo.after hostOps2 (W4 m ρ c) (Proc.devRef .tc main_v37) = _
  after_results_simp
  rw [W4_arg13 m ρ c]
  rfl

/-! ### Region 3's entry contents -/

/-- Buffer `main_arg14` is as launched when region 0 is entered. -/
theorem W1_arg14 (c : Dev nD) : W1 m ρ c (Proc.devRef .tc main_arg14) = m ((c : Thread nD τ).loc main_arg14) :=
  calc W1 m ρ c (Proc.devRef .tc main_arg14)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
/-- Buffer `main_arg14` is as launched when region 0 is left. -/
theorem W2_arg14 (c : Dev nD) : W2 m ρ c (Proc.devRef .tc main_arg14) = m ((c : Thread nD τ).loc main_arg14) :=
  (W2_of_ne m ρ c main_arg14 (by decide)).trans (W1_arg14 m ρ c)
/-- Buffer `main_arg14` is as launched when region 1 is entered. -/
theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W2_arg14 m ρ c
/-- Buffer `main_arg14` is as launched when region 1 is left. -/
theorem W4_arg14 (c : Dev nD) : W4 m ρ c (Proc.devRef .tc main_arg14) = m ((c : Thread nD τ).loc main_arg14) :=
  (W4_of_ne m ρ c main_arg14 (by decide)).trans (W3_arg14 m ρ c)
/-- Buffer `main_arg14` is as launched when region 2 is entered. -/
theorem W5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W4_arg14 m ρ c
/-- Buffer `main_arg14` is as launched when region 2 is left. -/
theorem W6_arg14 (c : Dev nD) : W6 m ρ c (Proc.devRef .tc main_arg14) = m ((c : Thread nD τ).loc main_arg14) :=
  (W6_of_ne m ρ c main_arg14 (by decide)).trans (W5_arg14 m ρ c)
/-- Buffer `main_arg14` is as launched when region 3 is entered. -/
theorem W7_arg14 (c : Dev nD) : W7 m ρ c (Proc.devRef .tc main_arg14) = m ((c : Thread nD τ).loc main_arg14) :=
  calc W7 m ρ c (Proc.devRef .tc main_arg14)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W6_arg14 m ρ c
/-- Buffer `main_arg16` is as launched when region 0 is entered. -/
theorem W1_arg16 (c : Dev nD) : W1 m ρ c (Proc.devRef .tc main_arg16) = m ((c : Thread nD τ).loc main_arg16) :=
  calc W1 m ρ c (Proc.devRef .tc main_arg16)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
/-- Buffer `main_arg16` is as launched when region 0 is left. -/
theorem W2_arg16 (c : Dev nD) : W2 m ρ c (Proc.devRef .tc main_arg16) = m ((c : Thread nD τ).loc main_arg16) :=
  (W2_of_ne m ρ c main_arg16 (by decide)).trans (W1_arg16 m ρ c)
/-- Buffer `main_arg16` is as launched when region 1 is entered. -/
theorem W3_arg16 (c : Dev nD) : W3 m ρ c (Proc.devRef .tc main_arg16) = m ((c : Thread nD τ).loc main_arg16) :=
  calc W3 m ρ c (Proc.devRef .tc main_arg16)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := W2_arg16 m ρ c
/-- Buffer `main_arg16` is as launched when region 1 is left. -/
theorem W4_arg16 (c : Dev nD) : W4 m ρ c (Proc.devRef .tc main_arg16) = m ((c : Thread nD τ).loc main_arg16) :=
  (W4_of_ne m ρ c main_arg16 (by decide)).trans (W3_arg16 m ρ c)
/-- Buffer `main_arg16` is as launched when region 2 is entered. -/
theorem W5_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := W4_arg16 m ρ c
/-- Buffer `main_arg16` is as launched when region 2 is left. -/
theorem W6_arg16 (c : Dev nD) : W6 m ρ c (Proc.devRef .tc main_arg16) = m ((c : Thread nD τ).loc main_arg16) :=
  (W6_of_ne m ρ c main_arg16 (by decide)).trans (W5_arg16 m ρ c)
/-- Buffer `main_arg16` is as launched when region 3 is entered. -/
theorem W7_arg16 (c : Dev nD) : W7 m ρ c (Proc.devRef .tc main_arg16) = m ((c : Thread nD τ).loc main_arg16) :=
  calc W7 m ρ c (Proc.devRef .tc main_arg16)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := W6_arg16 m ρ c
/-- Buffer `main_arg15` is as launched when region 0 is entered. -/
theorem W1_arg15 (c : Dev nD) : W1 m ρ c (Proc.devRef .tc main_arg15) = m ((c : Thread nD τ).loc main_arg15) :=
  calc W1 m ρ c (Proc.devRef .tc main_arg15)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
/-- Buffer `main_arg15` is as launched when region 0 is left. -/
theorem W2_arg15 (c : Dev nD) : W2 m ρ c (Proc.devRef .tc main_arg15) = m ((c : Thread nD τ).loc main_arg15) :=
  (W2_of_ne m ρ c main_arg15 (by decide)).trans (W1_arg15 m ρ c)
/-- Buffer `main_arg15` is as launched when region 1 is entered. -/
theorem W3_arg15 (c : Dev nD) : W3 m ρ c (Proc.devRef .tc main_arg15) = m ((c : Thread nD τ).loc main_arg15) :=
  calc W3 m ρ c (Proc.devRef .tc main_arg15)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W2_arg15 m ρ c
/-- Buffer `main_arg15` is as launched when region 1 is left. -/
theorem W4_arg15 (c : Dev nD) : W4 m ρ c (Proc.devRef .tc main_arg15) = m ((c : Thread nD τ).loc main_arg15) :=
  (W4_of_ne m ρ c main_arg15 (by decide)).trans (W3_arg15 m ρ c)
/-- Buffer `main_arg15` is as launched when region 2 is entered. -/
theorem W5_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W4_arg15 m ρ c
/-- Buffer `main_arg15` is as launched when region 2 is left. -/
theorem W6_arg15 (c : Dev nD) : W6 m ρ c (Proc.devRef .tc main_arg15) = m ((c : Thread nD τ).loc main_arg15) :=
  (W6_of_ne m ρ c main_arg15 (by decide)).trans (W5_arg15 m ρ c)
/-- Buffer `main_arg17` is as launched when region 0 is entered. -/
theorem W1_arg17 (c : Dev nD) : W1 m ρ c (Proc.devRef .tc main_arg17) = m ((c : Thread nD τ).loc main_arg17) :=
  calc W1 m ρ c (Proc.devRef .tc main_arg17)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
/-- Buffer `main_arg17` is as launched when region 0 is left. -/
theorem W2_arg17 (c : Dev nD) : W2 m ρ c (Proc.devRef .tc main_arg17) = m ((c : Thread nD τ).loc main_arg17) :=
  (W2_of_ne m ρ c main_arg17 (by decide)).trans (W1_arg17 m ρ c)
/-- Buffer `main_arg17` is as launched when region 1 is entered. -/
theorem W3_arg17 (c : Dev nD) : W3 m ρ c (Proc.devRef .tc main_arg17) = m ((c : Thread nD τ).loc main_arg17) :=
  calc W3 m ρ c (Proc.devRef .tc main_arg17)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := W2_arg17 m ρ c
/-- Buffer `main_arg17` is as launched when region 1 is left. -/
theorem W4_arg17 (c : Dev nD) : W4 m ρ c (Proc.devRef .tc main_arg17) = m ((c : Thread nD τ).loc main_arg17) :=
  (W4_of_ne m ρ c main_arg17 (by decide)).trans (W3_arg17 m ρ c)
/-- Buffer `main_arg17` is as launched when region 2 is entered. -/
theorem W5_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := W4_arg17 m ρ c
/-- Buffer `main_arg17` is as launched when region 2 is left. -/
theorem W6_arg17 (c : Dev nD) : W6 m ρ c (Proc.devRef .tc main_arg17) = m ((c : Thread nD τ).loc main_arg17) :=
  (W6_of_ne m ρ c main_arg17 (by decide)).trans (W5_arg17 m ρ c)
/-- Buffer `main_arg9` is as launched when region 0 is entered. -/
theorem W1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
/-- Buffer `main_arg9` is as launched when region 0 is left. -/
theorem W2_arg9 (c : Dev nD) : W2 m ρ c (Proc.devRef .tc main_arg9) = m ((c : Thread nD τ).loc main_arg9) :=
  (W2_of_ne m ρ c main_arg9 (by decide)).trans (W1_arg9 m ρ c)
/-- Buffer `main_arg9` is as launched when region 1 is entered. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_arg9 m ρ c
/-- Buffer `main_arg9` is as launched when region 1 is left. -/
theorem W4_arg9 (c : Dev nD) : W4 m ρ c (Proc.devRef .tc main_arg9) = m ((c : Thread nD τ).loc main_arg9) :=
  (W4_of_ne m ρ c main_arg9 (by decide)).trans (W3_arg9 m ρ c)
/-- Buffer `main_arg9` is as launched when region 2 is entered. -/
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W4_arg9 m ρ c
/-- Buffer `main_arg9` is as launched when region 2 is left. -/
theorem W6_arg9 (c : Dev nD) : W6 m ρ c (Proc.devRef .tc main_arg9) = m ((c : Thread nD τ).loc main_arg9) :=
  (W6_of_ne m ρ c main_arg9 (by decide)).trans (W5_arg9 m ρ c)
/-- Buffer `main_arg0` is as launched when region 0 is left. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg0 m ρ c
/-- Buffer `main_arg0` is as launched when region 1 is entered. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_arg0 m ρ c
/-- Buffer `main_arg0` is as launched when region 1 is left. -/
theorem W4_arg0 (c : Dev nD) : W4 m ρ c (Proc.devRef .tc main_arg0) = m ((c : Thread nD τ).loc main_arg0) :=
  (W4_of_ne m ρ c main_arg0 (by decide)).trans (W3_arg0 m ρ c)
/-- Buffer `main_arg0` is as launched when region 2 is entered. -/
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W4_arg0 m ρ c
/-- Buffer `main_arg0` is as launched when region 2 is left. -/
theorem W6_arg0 (c : Dev nD) : W6 m ρ c (Proc.devRef .tc main_arg0) = m ((c : Thread nD τ).loc main_arg0) :=
  (W6_of_ne m ρ c main_arg0 (by decide)).trans (W5_arg0 m ρ c)
/-- Buffer `main_arg3` is as launched when region 0 is entered. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
/-- Buffer `main_arg3` is as launched when region 0 is left. -/
theorem W2_arg3 (c : Dev nD) : W2 m ρ c (Proc.devRef .tc main_arg3) = m ((c : Thread nD τ).loc main_arg3) :=
  (W2_of_ne m ρ c main_arg3 (by decide)).trans (W1_arg3 m ρ c)
/-- Buffer `main_arg3` is as launched when region 1 is entered. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_arg3 m ρ c
/-- Buffer `main_arg3` is as launched when region 1 is left. -/
theorem W4_arg3 (c : Dev nD) : W4 m ρ c (Proc.devRef .tc main_arg3) = m ((c : Thread nD τ).loc main_arg3) :=
  (W4_of_ne m ρ c main_arg3 (by decide)).trans (W3_arg3 m ρ c)

/-- When region 2 is entered, the second aggregate holds region 1's output gathered along the second edge list's
    sources and summed into its targets. -/
theorem W5_v31 (c : Dev nD) : W5 m ρ c (Proc.devRef .tc main_v31) = edgeAgg ((dat1 (V3 m ρ) c).arrAt 3 cfg1.N) (m ((c : Thread nD τ).loc main_arg3)) := by
  show StableHlo.after hostOps2 (W4 m ρ c) (Proc.devRef .tc main_v31) = _
  after_results_simp
  rw [W4_arg3 m ρ c, W4_arr m ρ c 3]
  unfold edgeAgg
  rfl
/-- Region 2 leaves the second aggregate as it found it. -/
theorem W6_v31 (c : Dev nD) : W6 m ρ c (Proc.devRef .tc main_v31) = edgeAgg ((dat1 (V3 m ρ) c).arrAt 3 cfg1.N) (m ((c : Thread nD τ).loc main_arg3)) :=
  (W6_of_ne m ρ c main_v31 (by decide)).trans (W5_v31 m ρ c)

/-- Region 3 is entered with its first operand holding the launched 128-column features scaled by `1 + eps`, beside
    region 1's output gathered along the second edge list's sources and summed into its targets. -/
theorem V7_v42 (c : Dev nD) : V7 m ρ c main_v42 = hcat128 (m ((c : Thread nD τ).loc main_arg9)) (m ((c : Thread nD τ).loc main_arg0)) (edgeAgg ((dat1 (V3 m ρ) c).arrAt 3 cfg1.N) (m ((c : Thread nD τ).loc main_arg3))) := by
  show StableHlo.after hostOps3 (W6 m ρ c) (Proc.devRef .tc main_v42) = _
  after_results
  rw [W6_arg9 m ρ c, W6_arg0 m ρ c, W6_v31 m ρ c]
  unfold hcat128
  rfl
/-- Region 3 is entered with its first weight matrix as launched. -/
theorem V7_arg14 (c : Dev nD) : V7 m ρ c main_arg14 = m ((c : Thread nD τ).loc main_arg14) := W7_arg14 m ρ c
/-- Region 3 is entered with its second weight matrix as launched. -/
theorem V7_arg16 (c : Dev nD) : V7 m ρ c main_arg16 = m ((c : Thread nD τ).loc main_arg16) := W7_arg16 m ρ c
/-- Region 3 is entered with its first bias row holding the launched bias vector, read as a one-row matrix. -/
theorem V7_v43 (c : Dev nD) : V7 m ρ c main_v43 = shapeCast S1x256 (m ((c : Thread nD τ).loc main_arg15)) shapeCasts_S256_S1x256 := by
  show StableHlo.after hostOps3 (W6 m ρ c) (Proc.devRef .tc main_v43) = _
  after_results
  rw [W6_arg15 m ρ c]
  rfl
/-- Region 3 is entered with its second bias row holding the launched bias vector, read as a one-row matrix. -/
theorem V7_v44 (c : Dev nD) : V7 m ρ c main_v44 = shapeCast S1x128 (m ((c : Thread nD τ).loc main_arg17)) shapeCasts_S128_S1x128 := by
  show StableHlo.after hostOps3 (W6 m ρ c) (Proc.devRef .tc main_v44) = _
  after_results
  rw [W6_arg17 m ρ c]
  rfl

end Cert.KernelIdeal.KRun

end
-- ==== Proof.Spec.lean ====
/-
  The mathematics both programs compute, stated once over the extended reals.

  An AFFINE LAYER takes a matrix `x` of `M` rows and `K` columns, a weight matrix `w` (`K` by `N`) and a bias row
  `b` (`1` by `N`) to the matrix whose entry `(r, c)` is `(∑ k, x (r, k) * w (k, c)) + b (0, c)`. Row `r` of the
  result depends on row `r` of `x` only, so the layer of a block of rows is that block of rows of the layer.
  The two-layer perceptron is an affine layer, the positive part entry by entry, and a second affine layer.
  A matrix product contracted over one axis — the kernel's into a zero accumulator, the host's `dot_general` —
  is, at an entry, the sum over the contracted coordinate; a change of float format is the identity on the
  extended reals, so neither side rounds.
-/
import Idealize.ShloMosaic.PureOps.Ideal
import Idealize.ShloMosaic.PureOps.Ideal.Laws
import Idealize.ShloMosaic.Lib.ValueIdx
import Idealize.ShloMosaic.Lib.Pipeline.Value

noncomputable section

namespace Cert.Gin

open Idealize.ShloMosaic Idealize.ShloMosaic.ValueIdx

/-- A matrix of extended reals with `a` rows and `b` columns. -/
abbrev Mat (a b : Nat) : Type := (⟨2, ![a, b]⟩ : Shape).Idx → EReal

/-- The affine layer `x · w + b`: entry `(r, c)` is the sum over `k` of `x (r, k) * w (k, c)`, plus the bias
    row's entry `c`. -/
def affine {M K N : Nat} (x : Mat M K) (w : Mat K N) (b : Mat 1 N) : Mat M N :=
  fun i => (∑ k : Fin K, x (ix2 (n0 := M) (n1 := K) (i 0) k) * w (ix2 (n0 := K) (n1 := N) k (i 1)))
    + b (ix2 (n0 := 1) (n1 := N) 0 (i 1))

/-- The positive part, entry by entry. -/
def relu {M N : Nat} (y : Mat M N) : Mat M N := fun i => max (y i) 0

/-- The two-layer perceptron: an affine layer, the positive part, a second affine layer. -/
def mlp {M K H N : Nat} (h : Mat M K) (w1 : Mat K H) (b1 : Mat 1 H) (w2 : Mat H N) (b2 : Mat 1 N) : Mat M N :=
  affine (relu (affine h w1 b1)) w2 b2

/-- An affine layer reads row `r` of its input only: if `xb` is the block of `x` that starts at row `off`, then
    entry `(p, q)` of the layer of `xb` is entry `(off + p, q)` of the layer of `x`. -/
theorem affine_rows {M M' K N : Nat} (x : Mat M' K) (xb : Mat M K) (w : Mat K N) (b : Mat 1 N)
    (j : (⟨2, ![M, N]⟩ : Shape).Idx) (i : (⟨2, ![M', N]⟩ : Shape).Idx)
    (hx : ∀ k : Fin K, xb (ix2 (n0 := M) (n1 := K) (j 0) k) = x (ix2 (n0 := M') (n1 := K) (i 0) k))
    (hc : (i 1).val = (j 1).val) :
    affine xb w b j = affine x w b i := by
  have hc' : (j 1 : Fin N) = (i 1 : Fin N) := Fin.ext hc.symm
  unfold affine
  rw [show (j 1 : Fin (![M, N] 1)) = (i 1 : Fin N) from hc']
  exact congrArg (· + _) (Finset.sum_congr rfl fun k _ => by rw [hx k])

/-- The same for the perceptron. -/
theorem mlp_rows {M M' K H N : Nat} (x : Mat M' K) (xb : Mat M K) (w1 : Mat K H) (b1 : Mat 1 H) (w2 : Mat H N) (b2 : Mat 1 N)
    (j : (⟨2, ![M, N]⟩ : Shape).Idx) (i : (⟨2, ![M', N]⟩ : Shape).Idx)
    (hx : ∀ k : Fin K, xb (ix2 (n0 := M) (n1 := K) (j 0) k) = x (ix2 (n0 := M') (n1 := K) (i 0) k))
    (hc : (i 1).val = (j 1).val) :
    mlp xb w1 b1 w2 b2 j = mlp x w1 b1 w2 b2 i := by
  unfold mlp
  refine affine_rows _ _ w2 b2 j i (fun k2 => ?_) hc
  unfold relu
  refine congrArg (max · 0) ?_
  exact affine_rows x xb w1 b1 _ _ (fun k => hx k) rfl

/-- A plain matrix product's contraction, at an entry, is the sum over the contracted coordinate `k` of the left
    operand at `(row, k)` times the right operand at `(k, column)`. -/
theorem plain_sum (M K N : Nat) (l : Mat M K) (r : Mat K N) (j : (⟨2, ![M, N]⟩ : Shape).Idx) :
    (∑ q : (DotDims.plain M K N).contr.Idx, l ((DotDims.plain M K N).lhsIdx j q) * r ((DotDims.plain M K N).rhsIdx j q))
      = ∑ k : Fin K, l (ix2 (n0 := M) (n1 := K) (j 0) k) * r (ix2 (n0 := K) (n1 := N) k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (n0 := M) (n1 := K) (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 (n0 := K) (n1 := N) k (j 1) :=
    funext fun a => Fin.ext (by
      match a with
      | ⟨0, _⟩ => exact ((DotDims.plain M K N).rhsIdx_val_of_single rfl j _).trans hk
      | ⟨1, _⟩ => rfl)
  rw [el, er]

/-! ## The bias row, as each program spells it

  The kernel reshapes the bias vector to one row and broadcasts the row over the block's rows; the reference broadcasts
  the vector into one row and the row into the matrix. All of them read entry `c` of the vector at column `c`. -/

/-- A vector of `N` entries reshaped to one row: entry `(0, c)` is entry `c`. -/
theorem row_of_reshape {N : Nat} (b : (⟨1, ![N]⟩ : Shape).Idx → EReal) (h : (⟨1, ![N]⟩ : Shape).ShapeCasts ⟨2, ![1, N]⟩)
    (i : (⟨2, ![1, N]⟩ : Shape).Idx) : shapeCast ⟨2, ![1, N]⟩ b h i = b (ix1 (n := N) (i 1)) := by
  refine shapeCast_apply b h i _ ?_
  rw [Shape.rowMajor_val_two, Shape.rowMajor_val_one]
  have h0 : (i 0).val < 1 := (i 0).isLt
  show (i 1).val = (i 0).val * N + (i 1).val
  have : (i 0).val = 0 := by omega
  rw [this]; omega

/-- A vector broadcast into one row along the column axis: entry `(0, c)` is entry `c`. -/
theorem row_of_broadcast {N : Nat} (b : (⟨1, ![N]⟩ : Shape).Idx → EReal)
    (h : (⟨1, ![N]⟩ : Shape).BroadcastsInDim ⟨2, ![1, N]⟩ ![1])
    (i : (⟨2, ![1, N]⟩ : Shape).Idx) : broadcastInDim ⟨2, ![1, N]⟩ ![1] h b i = b (ix1 (n := N) (i 1)) := by
  refine broadcastInDim_apply _ h b i _ (fun a => ?_)
  match a with
  | ⟨0, _⟩ =>
    show (i 1).val = if N = 1 then 0 else (i 1).val
    have h1 : (i 1).val < N := (i 1).isLt
    split <;> omega

/-- So the two spellings of the bias row are one row. -/
theorem reshape_eq_broadcast {N : Nat} (b : (⟨1, ![N]⟩ : Shape).Idx → EReal) (h : (⟨1, ![N]⟩ : Shape).ShapeCasts ⟨2, ![1, N]⟩)
    (h' : (⟨1, ![N]⟩ : Shape).BroadcastsInDim ⟨2, ![1, N]⟩ ![1]) :
    broadcastInDim ⟨2, ![1, N]⟩ ![1] h' b = shapeCast ⟨2, ![1, N]⟩ b h :=
  funext fun i => (row_of_broadcast b h' i).trans (row_of_reshape b h i).symm

/-- A row broadcast over `M` rows (the kernel's `vector.broadcast`): entry `(r, c)` is the row's entry `(0, c)`. -/
theorem rows_of_broadcastTo {M N : Nat} (y : Mat 1 N) (h : (⟨2, ![1, N]⟩ : Shape).Broadcasts ⟨2, ![M, N]⟩)
    (j : (⟨2, ![M, N]⟩ : Shape).Idx) : broadcastTo ⟨2, ![M, N]⟩ y h j = y (ix2 (n0 := 1) (n1 := N) 0 (j 1)) := by
  refine broadcastTo_apply y h j _ (fun a => ?_)
  match a with
  | ⟨0, _⟩ => show (0 : Nat) = if (1 : Nat) = 1 then 0 else _; rw [if_pos rfl]
  | ⟨1, _⟩ =>
    show (j 1).val = if N = 1 then 0 else (j 1).val
    have h1 : (j 1).val < N := (j 1).isLt
    split <;> omega

/-- A row broadcast over `M` rows (the host's `broadcast_in_dim` along both axes): the same. -/
theorem rows_of_broadcastInDim {M N : Nat} (y : Mat 1 N) (h : (⟨2, ![1, N]⟩ : Shape).BroadcastsInDim ⟨2, ![M, N]⟩ ![0, 1])
    (j : (⟨2, ![M, N]⟩ : Shape).Idx) : broadcastInDim ⟨2, ![M, N]⟩ ![0, 1] h y j = y (ix2 (n0 := 1) (n1 := N) 0 (j 1)) := by
  refine broadcastInDim_apply _ h y j _ (fun a => ?_)
  match a with
  | ⟨0, _⟩ => show (0 : Nat) = if (1 : Nat) = 1 then 0 else _; rw [if_pos rfl]
  | ⟨1, _⟩ =>
    show (j 1).val = if N = 1 then 0 else (j 1).val
    have h1 : (j 1).val < N := (j 1).isLt
    split <;> omega

/-! ## The two matrix products at an entry -/

/-- The kernel's matrix product into a zero accumulator, with both operands' formats changed on the way in, is at an
    entry the contraction's sum: the formats' change is the identity and zero is neutral. -/
theorem matmul_entry (M K N : Nat) (l : Mat M K) (r : Mat K N) (j : (⟨2, ![M, N]⟩ : Shape).Idx) :
    FloatOps.matmul (F := Ideal) (DotDims.plain M K N) none (φ₁ := .bf16) (φ₂ := .bf16) l r (constant ⟨2, ![M, N]⟩ .f32 0x00000000#32) j
      = ∑ k : Fin K, l (ix2 (n0 := M) (n1 := K) (j 0) k) * r (ix2 (n0 := K) (n1 := N) k (j 1)) :=
  (Ideal.matmul_constant_zero_apply (φ₁ := .bf16) (φ₂ := .bf16) (DotDims.plain M K N) none l r j).trans (plain_sum M K N l r j)

/-- The host's `dot_general` over the same axes is the same sum. -/
theorem dot_entry (M K N : Nat) (l : Mat M K) (r : Mat K N) (j : (⟨2, ![M, N]⟩ : Shape).Idx) :
    Host.dotGeneral (F := Ideal) (DotDims.plain M K N) none (φ₁ := .f32) (φ₂ := .f32) l r j
      = ∑ k : Fin K, l (ix2 (n0 := M) (n1 := K) (j 0) k) * r (ix2 (n0 := K) (n1 := N) k (j 1)) := by
  simp only [Host.dotGeneral]
  exact (Ideal.dotGeneral_apply (φ₁ := .f32) (φ₂ := .f32) (DotDims.plain M K N) none _ l r j).trans (plain_sum M K N l r j)

end Cert.Gin

end
-- ==== Proof.Body.lean ====
/-
  What each kernel body stores, as a function of the blocks it loads: the two projection bodies store the affine layer
  of their row block, the two perceptron bodies the two-layer perceptron of theirs. Every step of a body is read at an
  entry: a format change is the identity on the extended reals, a matrix product into a zero accumulator is the
  contraction's sum, a bias row broadcast over the rows is the row's entry at the column, a maximum with the zero
  splat is the positive part.
-/
import proofs.«130959_j20590073217561_1_alg».proof.Proof.Gen.KernelIdeal.Skeleton
import proofs.«130959_j20590073217561_1_alg».proof.Proof.Spec

noncomputable section

namespace Cert.KernelIdeal.Body

open Cert.KernelIdeal Cert.KernelIdeal.Gen Idealize.ShloMosaic Idealize.ShloMosaic.ValueIdx Cert.Gin

/-- The first projection's body: the affine layer of a block of 2000 rows of 128 features. -/
theorem proj_user (x0 : Vec Ideal S2000x128 .f32) (x1 : Vec Ideal S128x128 .f32) (x2 : Vec Ideal S1x128 .f32) :
    k0_pay1 x0 x1 x2 = affine (M := 2000) (K := 128) (N := 128) x0 x1 x2 := by
  funext j
  unfold k0_pay1 affine
  refine (addf_apply _ _ j).trans (congrArg₂ (· + ·) ?_ ?_)
  · exact matmul_entry 2000 128 128 x0 x1 j
  · rw [shapeCast_self]
    exact rows_of_broadcastTo (M := 2000) (N := 128) x2 _ j

/-- The first perceptron's body: the two-layer perceptron of a block of 2000 rows of 192 features. -/
theorem mlp_tx (x0 : Vec Ideal S2000x192 .f32) (x3 : Vec Ideal S192x256 .f32) (x6 : Vec Ideal S1x256 .f32)
    (x13 : Vec Ideal S256x128 .f32) (x16 : Vec Ideal S1x128 .f32) :
    k2_pay1 x0 x3 x6 x13 x16 = mlp (M := 2000) (K := 192) (H := 256) (N := 128) x0 x3 x6 x13 x16 := by
  funext j
  unfold k2_pay1 mlp
  refine (addf_apply _ _ j).trans ?_
  show _ = (∑ k : Fin 256, relu (affine (M := 2000) (K := 192) (N := 256) x0 x3 x6) (ix2 (n0 := 2000) (n1 := 256) (j 0) k) * x13 (ix2 (n0 := 256) (n1 := 128) k (j 1))) + x16 (ix2 (n0 := 1) (n1 := 128) 0 (j 1))
  refine congrArg₂ (· + ·) ?_ ?_
  · refine (matmul_entry 2000 256 128 _ x13 j).trans (Finset.sum_congr rfl fun k _ => congrArg (· * _) ?_)
    refine (maximumf_apply _ _ _).trans (congrArg₂ max ?_ Ideal.ofBits_zero_f32)
    unfold affine
    refine (addf_apply _ _ _).trans (congrArg₂ (· + ·) ?_ ?_)
    · rw [shapeCast_self]
      exact matmul_entry 2000 192 256 x0 x3 _
    · rw [shapeCast_self]
      exact rows_of_broadcastTo (M := 2000) (N := 256) x6 _ _
  · rw [shapeCast_self]
    exact rows_of_broadcastTo (M := 2000) (N := 128) x16 _ j

/-- The second projection's body: the affine layer of a block of 2000 rows of 64 features. -/
theorem proj_tx (x0 : Vec Ideal S2000x64 .f32) (x1 : Vec Ideal S64x128 .f32) (x2 : Vec Ideal S1x128 .f32) :
    k1_pay1 x0 x1 x2 = affine (M := 2000) (K := 64) (N := 128) x0 x1 x2 := by
  funext j
  unfold k1_pay1 affine
  refine (addf_apply _ _ j).trans (congrArg₂ (· + ·) ?_ ?_)
  · exact matmul_entry 2000 64 128 x0 x1 j
  · rw [shapeCast_self]
    exact rows_of_broadcastTo (M := 2000) (N := 128) x2 _ j

/-- The second perceptron's body: the two-layer perceptron of a block of 2000 rows of 256 features. -/
theorem mlp_user (x0 : Vec Ideal S2000x256 .f32) (x3 : Vec Ideal S256x256 .f32) (x6 : Vec Ideal S1x256 .f32)
    (x13 : Vec Ideal S256x128 .f32) (x16 : Vec Ideal S1x128 .f32) :
    k3_pay1 x0 x3 x6 x13 x16 = mlp (M := 2000) (K := 256) (H := 256) (N := 128) x0 x3 x6 x13 x16 := by
  funext j
  unfold k3_pay1 mlp
  refine (addf_apply _ _ j).trans ?_
  show _ = (∑ k : Fin 256, relu (affine (M := 2000) (K := 256) (N := 256) x0 x3 x6) (ix2 (n0 := 2000) (n1 := 256) (j 0) k) * x13 (ix2 (n0 := 256) (n1 := 128) k (j 1))) + x16 (ix2 (n0 := 1) (n1 := 128) 0 (j 1))
  refine congrArg₂ (· + ·) ?_ ?_
  · refine (matmul_entry 2000 256 128 _ x13 j).trans (Finset.sum_congr rfl fun k _ => congrArg (· * _) ?_)
    refine (maximumf_apply _ _ _).trans (congrArg₂ max ?_ Ideal.ofBits_zero_f32)
    unfold affine
    refine (addf_apply _ _ _).trans (congrArg₂ (· + ·) ?_ ?_)
    · rw [shapeCast_self]
      exact matmul_entry 2000 256 256 x0 x3 _
    · rw [shapeCast_self]
      exact rows_of_broadcastTo (M := 2000) (N := 256) x6 _ _
  · rw [shapeCast_self]
    exact rows_of_broadcastTo (M := 2000) (N := 128) x16 _ j

end Cert.KernelIdeal.Body

end
-- ==== Proof.ProjUser.lean ====
/-
  The first projection's output array, whole. The grid has 25 points; point `t` reads rows `2000 t … 2000 t + 1999` of the
  user features (all 128 columns), the whole weight matrix and the whole bias row, and writes the same rows of the
  output. What it writes is the affine layer of its row block, which is that row block of the affine layer of the whole
  feature matrix (a row of the layer depends on the same row of the input only); the 25 blocks tile the 50000 rows, so
  the array ends holding the affine layer of the whole matrix.
-/
import proofs.«130959_j20590073217561_1_alg».proof.Proof.Gen.KernelIdeal.Frame
import proofs.«130959_j20590073217561_1_alg».proof.Proof.Body
import Idealize.ShloMosaic.Lib.Pipeline.Value

set_option maxRecDepth 16384

noncomputable section

namespace Cert.KernelIdeal.ProjUser

open Cert.KernelIdeal Cert.KernelIdeal.Gen Idealize.ShloMosaic Idealize.ShloMosaic.TcCoe Idealize.ShloMosaic.ValueIdx Cert.Gin
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window and the output window sit at row block `t`, column block
    `0`; the weight and bias windows never move. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block is the whole weight matrix. -/
theorem weights_whole (c : Dev nD) (t : Fin cfg0.N) : iblk0 V c 1 t = V c main_arg4 := by
  obtain ⟨-, -, e2, e3, -, -, -, -⟩ := index_maps t
  funext y
  show V c main_arg4 (((cfg0.win 1).blk t).view.emb y) = V c main_arg4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block is the whole bias row. -/
theorem bias_whole (c : Dev nD) (t : Fin cfg0.N) : iblk0 V c 2 t = V c main_v0 := by
  obtain ⟨-, -, -, -, e4, e5, -, -⟩ := index_maps t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- WHAT POINT `t` WRITES BACK is block `t` of the affine layer of the arrays as the region finds them. -/
theorem flushed_eq (c : Dev nD) (t : Fin cfg0.N) :
    (dat0 V c).flushed 3 t = ((cfg0.win 3).blk t).view.read (Elt Ideal)
      (affine (M := 50000) (K := 128) (N := 128) (V c main_arg0) (V c main_arg4) (V c main_v0)) := by
  show (cfg0.win 3).cut (grid0.coords t) ((dat0 V c).after 3 t) = _
  rw [after0_3]
  unfold out0_3
  rw [View.canon_unit_zero origin]
  simp only [View.ld_unit_zero (S := S2000x128) origin, View.ld_unit_zero (S := S128x128) origin, View.ld_unit_zero (S := S1x128) origin]
  rw [Body.proj_user, weights_whole V c t, bias_whole V c t]
  obtain ⟨e0, e1, -, -, -, -, e6, e7⟩ := index_maps t
  funext j
  show affine (M := 2000) (K := 128) (N := 128) (iblk0 V c 0 t) (V c main_arg4) (V c main_v0) j
    = affine (M := 50000) (K := 128) (N := 128) (V c main_arg0) (V c main_arg4) (V c main_v0) (((cfg0.win 3).blk t).view.emb j)
  refine affine_rows (M := 2000) (M' := 50000) (V c main_arg0) (iblk0 V c 0 t) (V c main_arg4) (V c main_v0) j _ (fun k => ?_) ?_
  · show V c main_arg0 (((cfg0.win 0).blk t).view.emb (ix2 (n0 := 2000) (n1 := 128) (j 0) k)) = V c main_arg0 _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show win0_3.index t (1 : Fin 2) * 128 + 1 * (j 1).val = (j 1).val; omega

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- The 25 row blocks cover the array: row `r` is in the block of point `r / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  obtain ⟨-, -, -, -, -, -, e6, e7⟩ := index_maps ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e7]; omega

/-- THE ARRAY after the region: the affine layer of the feature matrix, the weights and the bias row as the region
    finds them. -/
theorem array (c : Dev nD) :
    (dat0 V c).arrAt 3 cfg0.N = affine (M := 50000) (K := 128) (N := 128) (V c main_arg0) (V c main_arg4) (V c main_v0) :=
  (dat0 V c).arrAt_eq_of_cover 3 _ (fun t _ => flushed_eq V c t) cover

end Cert.KernelIdeal.ProjUser

end
-- ==== Proof.ProjTx.lean ====
/-
  The second projection's output array, whole. The grid has 25 points; point `t` reads rows `2000 t … 2000 t + 1999` of the
  transaction features (all 64 columns), the whole weight matrix and the whole bias row, and writes the same rows of the
  output. What it writes is the affine layer of its row block, which is that row block of the affine layer of the whole
  feature matrix (a row of the layer depends on the same row of the input only); the 25 blocks tile the 50000 rows, so
  the array ends holding the affine layer of the whole matrix.
-/
import proofs.«130959_j20590073217561_1_alg».proof.Proof.Gen.KernelIdeal.Frame
import proofs.«130959_j20590073217561_1_alg».proof.Proof.Body
import Idealize.ShloMosaic.Lib.Pipeline.Value

set_option maxRecDepth 16384

noncomputable section

namespace Cert.KernelIdeal.ProjTx

open Cert.KernelIdeal Cert.KernelIdeal.Gen Idealize.ShloMosaic Idealize.ShloMosaic.TcCoe Idealize.ShloMosaic.ValueIdx Cert.Gin
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window and the output window sit at row block `t`, column block
    `0`; the weight and bias windows never move. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight window's block is the whole weight matrix. -/
theorem weights_whole (c : Dev nD) (t : Fin cfg1.N) : iblk1 V c 1 t = V c main_arg6 := by
  obtain ⟨-, -, e2, e3, -, -, -, -⟩ := index_maps t
  funext y
  show V c main_arg6 (((cfg1.win 1).blk t).view.emb y) = V c main_arg6 y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 128 + 1 * (y 1).val = (y 1).val; omega

/-- The bias window's block is the whole bias row. -/
theorem bias_whole (c : Dev nD) (t : Fin cfg1.N) : iblk1 V c 2 t = V c main_v2 := by
  obtain ⟨-, -, -, -, e4, e5, -, -⟩ := index_maps t
  funext y
  show V c main_v2 (((cfg1.win 2).blk t).view.emb y) = V c main_v2 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- WHAT POINT `t` WRITES BACK is block `t` of the affine layer of the arrays as the region finds them. -/
theorem flushed_eq (c : Dev nD) (t : Fin cfg1.N) :
    (dat1 V c).flushed 3 t = ((cfg1.win 3).blk t).view.read (Elt Ideal)
      (affine (M := 50000) (K := 64) (N := 128) (V c main_arg1) (V c main_arg6) (V c main_v2)) := by
  show (cfg1.win 3).cut (grid1.coords t) ((dat1 V c).after 3 t) = _
  rw [after1_3]
  unfold out1_3
  rw [View.canon_unit_zero origin]
  simp only [View.ld_unit_zero (S := S2000x64) origin, View.ld_unit_zero (S := S64x128) origin, View.ld_unit_zero (S := S1x128) origin]
  rw [Body.proj_tx, weights_whole V c t, bias_whole V c t]
  obtain ⟨e0, e1, -, -, -, -, e6, e7⟩ := index_maps t
  funext j
  show affine (M := 2000) (K := 64) (N := 128) (iblk1 V c 0 t) (V c main_arg6) (V c main_v2) j
    = affine (M := 50000) (K := 64) (N := 128) (V c main_arg1) (V c main_arg6) (V c main_v2) (((cfg1.win 3).blk t).view.emb j)
  refine affine_rows (M := 2000) (M' := 50000) (V c main_arg1) (iblk1 V c 0 t) (V c main_arg6) (V c main_v2) j _ (fun k => ?_) ?_
  · show V c main_arg1 (((cfg1.win 0).blk t).view.emb (ix2 (n0 := 2000) (n1 := 64) (j 0) k)) = V c main_arg1 _
    refine congrArg _ (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * k.val = k.val; omega
  · show win1_3.index t (1 : Fin 2) * 128 + 1 * (j 1).val = (j 1).val; omega

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- The 25 row blocks cover the array: row `r` is in the block of point `r / 2000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_3 _, ?_⟩
  obtain ⟨-, -, -, -, -, -, e6, e7⟩ := index_maps ⟨(i 0).val / 2000, by rw [hN]; omega⟩
  rw [mem_blk]
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e7]; omega

/-- THE ARRAY after the region: the affine layer of the feature matrix, the weights and the bias row as the region
    finds them. -/
theorem array (c : Dev nD) :
    (dat1 V c).arrAt 3 cfg1.N = affine (M := 50000) (K := 64) (N := 128) (V c main_arg1) (V c main_arg6) (V c main_v2) :=
  (dat1 V c).arrAt_eq_of_cover 3 _ (fun t _ => flushed_eq V c t) cover

end Cert.KernelIdeal.ProjTx

end
-- ==== Proof.MlpTx.lean ====
/-
  The first perceptron's output array, whole. The grid has 25 points; point `t` reads rows `2000 t … 2000 t + 1999` of the
  192-column input (the scaled transaction features beside the aggregated messages), both weight matrices and both bias
  rows whole, and writes the same rows of the output. What it writes is the two-layer perceptron of its row block, which
  is that row block of the perceptron of the whole input (a row of either layer depends on the same row of its input
  only); the 25 blocks tile the 50000 rows, so the array ends holding the perceptron of the whole input.
-/
import proofs.«130959_j20590073217561_1_alg».proof.Proof.Gen.KernelIdeal.Frame
import proofs.«130959_j20590073217561_1_alg».proof.Proof.Body
import Idealize.ShloMosaic.Lib.Pipeline.Value

set_option maxRecDepth 16384

noncomputable section

namespace Cert.KernelIdeal.MlpTx

open Cert.KernelIdeal Cert.KernelIdeal.Gen Idealize.ShloMosaic Idealize.ShloMosaic.TcCoe Idealize.ShloMosaic.ValueIdx Cert.Gin
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input window and the output window sit at row block `t`, column block
    `0`; the weight and bias windows never move. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first weight window's block is the whole matrix. -/
theorem weights1_whole (c : Dev nD) (t : Fin cfg2.N) : iblk2 V c 1 t = V c main_arg10 := by
  obtain ⟨-, -, e2, e3, -, -, -, -, -, -, -, -⟩ := index_maps t
  funext y
  show V c main_arg10 (((cfg2.win 1).blk t).view.emb y) = V c main_arg10 y
  refine congrArg _ (funext fun a => Fin.ext ?_)
  match a with
  | ⟨0, _⟩ => show win2_1.index t (0 : Fin 2) * 192 + 1 * (y 0).val = (y 0).val; omega
  | ⟨1, _⟩ => show win2_1.index t (1 : Fin 2) * 256 + 1 * (y 1).val = (y 1).val; omega

/-- The first bias window's block is the whole row. -/
theorem bias1_whole (c : Dev nD) (t : Fin cfg2.N) : iblk2 V c 2 t = V c main_v36 := by
  obtain ⟨-, -, -, -, e4, e5, -, -, -, -, -, -⟩ := index_maps t
  funext y
  show V c main_v36 (((cfg2.win 2).blk t).view.emb y) = V c main_v36 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- The second weight window's block is the whole matrix. -/
theorem weights2_whole (c : Dev nD) (t : Fin cfg2.N) : iblk2 V c 3 t = V c main_arg12 := by
  obtain ⟨-, -, -, -, -, -, e6, e7, -, -, -, -⟩ := index_maps t
  funext y
  show V c main_arg12 (((cfg2.win 3).blk t).view.emb y) = V c main_arg12 y
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- The second bias window's block is the whole row. -/
theorem bias2_whole (c : Dev nD) (t : Fin cfg2.N) : iblk2 V c 4 t = V c main_v37 := by
  obtain ⟨-, -, -, -, -, -, -, -, e8, e9, -, -⟩ := index_maps t
  funext y
  show V c main_v37 (((cfg2.win 4).blk t).view.emb y) = V c main_v37 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- WHAT POINT `t` WRITES BACK is block `t` of the perceptron of the arrays as the region finds them. -/
theorem flushed_eq (c : Dev nD) (t : Fin cfg2.N) :
    (dat2 V c).flushed 5 t = ((cfg2.win 5).blk t).view.read (Elt Ideal)
      (mlp (M := 50000) (K := 192) (H := 256) (N := 128) (V c main_v35) (V c main_arg10) (V c main_v36) (V c main_arg12) (V c main_v37)) := by
  show (cfg2.win 5).cut (grid2.coords t) ((dat2 V c).after 5 t) = _
  rw [after2_5]
  unfold out2_5
  rw [View.canon_unit_zero origin]
  simp only [View.ld_unit_zero (S := S2000x192) origin, View.ld_unit_zero (S := S192x256) origin, View.ld_unit_zero (S := S1x256) origin,
    View.ld_unit_zero (S := S256x128) origin, View.ld_unit_zero (S := S1x128) origin]
  rw [Body.mlp_tx, weights1_whole V c t, bias1_whole V c t, weights2_whole V c t, bias2_whole V c t]
  obtain ⟨e0, e1, -, -, -, -, -, -, -, -, e10, e11⟩ := index_maps t
  funext j
  show mlp (M := 2000) (K := 192) (H := 256) (N := 128) (iblk2 V c 0 t) (V c main_arg10) (V c main_v36) (V c main_arg12) (V c main_v37) j
    = mlp (M := 50000) (K := 192) (H := 256) (N := 128) (V c main_v35) (V c main_arg10) (V c main_v36) (V c main_arg12) (V c main_v37) (((cfg2.win 5).blk t).view.emb j)
  refine mlp_rows (M := 2000) (M' := 50000) (V c main_v35) (iblk2 V c 0 t) (V c main_arg10) (V c main_v36) (V c main_arg12) (V c main_v37) j _ (fun k => ?_) ?_
  · show V c main_v35 (((cfg2.win 0).blk t).view.emb (ix2 (n0 := 2000) (n1 := 192) (j 0) k)) = V c main_v35 _
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 192 + 1 * k.val = k.val; omega
  · show win2_5.index t (1 : Fin 2) * 128 + 1 * (j 1).val = (j 1).val; omega

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v38).slice (win2_5.rect t)).set ↔ _
  rw [View.set_slice_whole, Rect.mem_set_unit]
  exact Iff.rfl

/-- The 25 row blocks cover the array: row `r` is in the block of point `r / 2000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_5 _, ?_⟩
  obtain ⟨-, -, -, -, -, -, -, -, -, -, e10, e11⟩ := index_maps ⟨(i 0).val / 2000, by rw [hN]; omega⟩
  rw [mem_blk]
  intro a
  match a with
  | ⟨0, _⟩ =>
    show win2_5.index _ (0 : Fin 2) * 2000 ≤ (i 0).val ∧ (i 0).val < win2_5.index _ (0 : Fin 2) * 2000 + 2000
    rw [e10]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e11]; omega

/-- THE ARRAY after the region: the perceptron of the input, the weights and the bias rows as the region finds them. -/
theorem array (c : Dev nD) :
    (dat2 V c).arrAt 5 cfg2.N = mlp (M := 50000) (K := 192) (H := 256) (N := 128) (V c main_v35) (V c main_arg10) (V c main_v36) (V c main_arg12) (V c main_v37) :=
  (dat2 V c).arrAt_eq_of_cover 5 _ (fun t _ => flushed_eq V c t) cover

end Cert.KernelIdeal.MlpTx

end
-- ==== Proof.MlpUser.lean ====
/-
  The second perceptron's output array, whole. The grid has 25 points; point `t` reads rows `2000 t … 2000 t + 1999` of the
  256-column input (the scaled user features beside the aggregated messages), both weight matrices and both bias
  rows whole, and writes the same rows of the output. What it writes is the two-layer perceptron of its row block, which
  is that row block of the perceptron of the whole input (a row of either layer depends on the same row of its input
  only); the 25 blocks tile the 50000 rows, so the array ends holding the perceptron of the whole input.
-/
import proofs.«130959_j20590073217561_1_alg».proof.Proof.Gen.KernelIdeal.Frame
import proofs.«130959_j20590073217561_1_alg».proof.Proof.Body
import Idealize.ShloMosaic.Lib.Pipeline.Value

set_option maxRecDepth 16384

noncomputable section

namespace Cert.KernelIdeal.MlpUser

open Cert.KernelIdeal Cert.KernelIdeal.Gen Idealize.ShloMosaic Idealize.ShloMosaic.TcCoe Idealize.ShloMosaic.ValueIdx Cert.Gin
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input window and the output window sit at row block `t`, column block
    `0`; the weight and bias windows never move. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first weight window's block is the whole matrix. -/
theorem weights1_whole (c : Dev nD) (t : Fin cfg3.N) : iblk3 V c 1 t = V c main_arg14 := by
  obtain ⟨-, -, e2, e3, -, -, -, -, -, -, -, -⟩ := index_maps t
  funext y
  show V c main_arg14 (((cfg3.win 1).blk t).view.emb y) = V c main_arg14 y
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 256 + 1 * (y 1).val = (y 1).val; omega

/-- The first bias window's block is the whole row. -/
theorem bias1_whole (c : Dev nD) (t : Fin cfg3.N) : iblk3 V c 2 t = V c main_v43 := by
  obtain ⟨-, -, -, -, e4, e5, -, -, -, -, -, -⟩ := index_maps t
  funext y
  show V c main_v43 (((cfg3.win 2).blk t).view.emb y) = V c main_v43 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- The second weight window's block is the whole matrix. -/
theorem weights2_whole (c : Dev nD) (t : Fin cfg3.N) : iblk3 V c 3 t = V c main_arg16 := by
  obtain ⟨-, -, -, -, -, -, e6, e7, -, -, -, -⟩ := index_maps t
  funext y
  show V c main_arg16 (((cfg3.win 3).blk t).view.emb y) = V c main_arg16 y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 128 + 1 * (y 1).val = (y 1).val; omega

/-- The second bias window's block is the whole row. -/
theorem bias2_whole (c : Dev nD) (t : Fin cfg3.N) : iblk3 V c 4 t = V c main_v44 := by
  obtain ⟨-, -, -, -, -, -, -, -, e8, e9, -, -⟩ := index_maps t
  funext y
  show V c main_v44 (((cfg3.win 4).blk t).view.emb y) = V c main_v44 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- WHAT POINT `t` WRITES BACK is block `t` of the perceptron of the arrays as the region finds them. -/
theorem flushed_eq (c : Dev nD) (t : Fin cfg3.N) :
    (dat3 V c).flushed 5 t = ((cfg3.win 5).blk t).view.read (Elt Ideal)
      (mlp (M := 50000) (K := 256) (H := 256) (N := 128) (V c main_v42) (V c main_arg14) (V c main_v43) (V c main_arg16) (V c main_v44)) := by
  show (cfg3.win 5).cut (grid3.coords t) ((dat3 V c).after 5 t) = _
  rw [after3_5]
  unfold out3_5
  rw [View.canon_unit_zero origin]
  simp only [View.ld_unit_zero (S := S2000x256) origin, View.ld_unit_zero (S := S256x256) origin, View.ld_unit_zero (S := S1x256) origin,
    View.ld_unit_zero (S := S256x128) origin, View.ld_unit_zero (S := S1x128) origin]
  rw [Body.mlp_user, weights1_whole V c t, bias1_whole V c t, weights2_whole V c t, bias2_whole V c t]
  obtain ⟨e0, e1, -, -, -, -, -, -, -, -, e10, e11⟩ := index_maps t
  funext j
  show mlp (M := 2000) (K := 256) (H := 256) (N := 128) (iblk3 V c 0 t) (V c main_arg14) (V c main_v43) (V c main_arg16) (V c main_v44) j
    = mlp (M := 50000) (K := 256) (H := 256) (N := 128) (V c main_v42) (V c main_arg14) (V c main_v43) (V c main_arg16) (V c main_v44) (((cfg3.win 5).blk t).view.emb j)
  refine mlp_rows (M := 2000) (M' := 50000) (V c main_v42) (iblk3 V c 0 t) (V c main_arg14) (V c main_v43) (V c main_arg16) (V c main_v44) j _ (fun k => ?_) ?_
  · show V c main_v42 (((cfg3.win 0).blk t).view.emb (ix2 (n0 := 2000) (n1 := 256) (j 0) k)) = V c main_v42 _
    refine congrArg _ (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * k.val = k.val; omega
  · show win3_5.index t (1 : Fin 2) * 128 + 1 * (j 1).val = (j 1).val; omega

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v45).slice (win3_5.rect t)).set ↔ _
  rw [View.set_slice_whole, Rect.mem_set_unit]
  exact Iff.rfl

/-- The 25 row blocks cover the array: row `r` is in the block of point `r / 2000`. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_5 _, ?_⟩
  obtain ⟨-, -, -, -, -, -, -, -, -, -, e10, e11⟩ := index_maps ⟨(i 0).val / 2000, by rw [hN]; omega⟩
  rw [mem_blk]
  intro a
  match a with
  | ⟨0, _⟩ =>
    show win3_5.index _ (0 : Fin 2) * 2000 ≤ (i 0).val ∧ (i 0).val < win3_5.index _ (0 : Fin 2) * 2000 + 2000
    rw [e10]; show (i 0).val / 2000 * 2000 ≤ (i 0).val ∧ (i 0).val < (i 0).val / 2000 * 2000 + 2000; omega
  | ⟨1, _⟩ =>
    show win3_5.index _ (1 : Fin 2) * 128 ≤ (i 1).val ∧ (i 1).val < win3_5.index _ (1 : Fin 2) * 128 + 128
    rw [e11]; omega

/-- THE ARRAY after the region: the perceptron of the input, the weights and the bias rows as the region finds them. -/
theorem array (c : Dev nD) :
    (dat3 V c).arrAt 5 cfg3.N = mlp (M := 50000) (K := 256) (H := 256) (N := 128) (V c main_v42) (V c main_arg14) (V c main_v43) (V c main_arg16) (V c main_v44) :=
  (dat3 V c).arrAt_eq_of_cover 5 _ (fun t _ => flushed_eq V c t) cover

end Cert.KernelIdeal.MlpUser

end
-- ==== Proof.HostSpec.lean ====
/-
  The reference's spelling of the same layers. On the host an affine layer is a `dot_general` plus the bias row
  broadcast over the rows, and the perceptron is that, a maximum with the zero scalar broadcast everywhere, and the same
  again. At an entry each is what the specification says: the contraction's sum, the row's entry at the column, the
  positive part.
-/
import proofs.«130959_j20590073217561_1_alg».proof.Proof.Spec

noncomputable section

namespace Cert.Gin

open Idealize.ShloMosaic Idealize.ShloMosaic.ValueIdx

/-- The host's affine layer: a `dot_general` plus the bias row broadcast along the rows. -/
theorem host_affine (M K N : Nat) (x : Mat M K) (w : Mat K N) (b : Mat 1 N)
    (h : (⟨2, ![1, N]⟩ : Shape).BroadcastsInDim ⟨2, ![M, N]⟩ ![0, 1]) :
    addf (F := Ideal) (φ := .f32) (Host.dotGeneral (F := Ideal) (DotDims.plain M K N) none (φ₁ := .f32) (φ₂ := .f32) x w)
      (broadcastInDim ⟨2, ![M, N]⟩ ![0, 1] h b) = affine x w b := by
  funext j
  unfold affine
  exact (addf_apply _ _ j).trans (congrArg₂ (· + ·) (dot_entry M K N x w j) (rows_of_broadcastInDim b h j))

/-- The host's positive part: the maximum with the zero scalar broadcast to every entry. -/
theorem host_relu (M N : Nat) (y : Mat M N) (h : (⟨0, ![]⟩ : Shape).BroadcastsInDim ⟨2, ![M, N]⟩ ![]) :
    maximumf (F := Ideal) (φ := .f32) y (broadcastInDim ⟨2, ![M, N]⟩ ![] h (constant (F := Ideal) ⟨0, ![]⟩ .f32 0x00000000#32)) = relu y := by
  funext i
  unfold relu
  refine (maximumf_apply _ _ i).trans (congrArg (max (y i)) ?_)
  refine (broadcastInDim_apply _ h _ i ix0 (fun a => a.elim0)).trans ?_
  exact Ideal.ofBits_zero_f32

/-- The host's two-layer perceptron. -/
theorem host_mlp (M K H N : Nat) (x : Mat M K) (w1 : Mat K H) (b1 : Mat 1 H) (w2 : Mat H N) (b2 : Mat 1 N)
    (h1 : (⟨2, ![1, H]⟩ : Shape).BroadcastsInDim ⟨2, ![M, H]⟩ ![0, 1])
    (hz : (⟨0, ![]⟩ : Shape).BroadcastsInDim ⟨2, ![M, H]⟩ ![])
    (h2 : (⟨2, ![1, N]⟩ : Shape).BroadcastsInDim ⟨2, ![M, N]⟩ ![0, 1]) :
    addf (F := Ideal) (φ := .f32) (Host.dotGeneral (F := Ideal) (DotDims.plain M H N) none (φ₁ := .f32) (φ₂ := .f32)
        (maximumf (F := Ideal) (φ := .f32)
          (addf (F := Ideal) (φ := .f32) (Host.dotGeneral (F := Ideal) (DotDims.plain M K H) none (φ₁ := .f32) (φ₂ := .f32) x w1)
            (broadcastInDim ⟨2, ![M, H]⟩ ![0, 1] h1 b1))
          (broadcastInDim ⟨2, ![M, H]⟩ ![] hz (constant (F := Ideal) ⟨0, ![]⟩ .f32 0x00000000#32))) w2)
      (broadcastInDim ⟨2, ![M, N]⟩ ![0, 1] h2 b2) = mlp x w1 b1 w2 b2 := by
  rw [host_affine M K H x w1 b1 h1, host_relu M H _ hz, host_affine M H N _ w2 b2 h2]
  rfl

end Cert.Gin

end
-- ==== Proof.RefValue.lean ====
/-
  The reference's four layers, with its own dimension records: each projection is the affine layer of the whole feature
  matrix with the bias vector read as one row, and each perceptron the two-layer perceptron of its whole input with
  both bias vectors read as rows. (The bias row the reference builds by a broadcast is the row a reshape gives.)
-/
import proofs.«130959_j20590073217561_1_alg».proof.Proof.Gen.ReferenceIdeal
import proofs.«130959_j20590073217561_1_alg».proof.Proof.HostSpec

noncomputable section

namespace Cert.ReferenceIdeal.RefValue

open Cert.ReferenceIdeal Cert.ReferenceIdeal.Facts₀ Idealize.ShloMosaic Idealize.ShloMosaic.ValueIdx Cert.Gin

/-- The reference's projection of the user features. -/
theorem affine_user (x : FVec Ideal S50000x128 .f32) (w : FVec Ideal S128x128 .f32) (b : FVec Ideal S128 .f32) (hc : S128.ShapeCasts S1x128) :
    addf (Host.dotGeneral dot_S50000x128_S128x128_S50000x128_1_0_0_1_n_n none x w)
        (broadcastInDim S50000x128 ![0, 1] bcast_S1x128_S50000x128_0_1 (broadcastInDim S1x128 ![1] bcast_S128_S1x128_1 b))
      = affine (M := 50000) (K := 128) (N := 128) x w (shapeCast S1x128 b hc) := by
  rw [show broadcastInDim S1x128 ![1] bcast_S128_S1x128_1 b = shapeCast S1x128 b hc from reshape_eq_broadcast (N := 128) b hc _]
  exact host_affine 50000 128 128 x w _ _

/-- The reference's projection of the transaction features. -/
theorem affine_tx (x : FVec Ideal S50000x64 .f32) (w : FVec Ideal S64x128 .f32) (b : FVec Ideal S128 .f32) (hc : S128.ShapeCasts S1x128) :
    addf (Host.dotGeneral dot_S50000x64_S64x128_S50000x128_1_0_0_1_n_n none x w)
        (broadcastInDim S50000x128 ![0, 1] bcast_S1x128_S50000x128_0_1 (broadcastInDim S1x128 ![1] bcast_S128_S1x128_1 b))
      = affine (M := 50000) (K := 64) (N := 128) x w (shapeCast S1x128 b hc) := by
  rw [show broadcastInDim S1x128 ![1] bcast_S128_S1x128_1 b = shapeCast S1x128 b hc from reshape_eq_broadcast (N := 128) b hc _]
  exact host_affine 50000 64 128 x w _ _

/-- The reference's perceptron over the 192-column input. -/
theorem mlp_tx (h : FVec Ideal S50000x192 .f32) (w1 : FVec Ideal S192x256 .f32) (b1 : FVec Ideal S256 .f32) (w2 : FVec Ideal S256x128 .f32)
    (b2 : FVec Ideal S128 .f32) (hc1 : S256.ShapeCasts S1x256) (hc2 : S128.ShapeCasts S1x128) :
    addf (Host.dotGeneral dot_S50000x256_S256x128_S50000x128_1_0_0_1_n_n none
          (maximumf (addf (Host.dotGeneral dot_S50000x192_S192x256_S50000x256_1_0_0_1_n_n none h w1)
              (broadcastInDim S50000x256 ![0, 1] bcast_S1x256_S50000x256_0_1 (broadcastInDim S1x256 ![1] bcast_S256_S1x256_1 b1)))
            (broadcastInDim S50000x256 ![] bcast_S_S50000x256 (constant S_ .f32 0x00000000#32))) w2)
        (broadcastInDim S50000x128 ![0, 1] bcast_S1x128_S50000x128_0_1 (broadcastInDim S1x128 ![1] bcast_S128_S1x128_1 b2))
      = mlp (M := 50000) (K := 192) (H := 256) (N := 128) h w1 (shapeCast S1x256 b1 hc1) w2 (shapeCast S1x128 b2 hc2) := by
  rw [show broadcastInDim S1x256 ![1] bcast_S256_S1x256_1 b1 = shapeCast S1x256 b1 hc1 from reshape_eq_broadcast (N := 256) b1 hc1 _,
    show broadcastInDim S1x128 ![1] bcast_S128_S1x128_1 b2 = shapeCast S1x128 b2 hc2 from reshape_eq_broadcast (N := 128) b2 hc2 _]
  exact host_mlp 50000 192 256 128 h w1 _ w2 _ _ _ _

/-- The reference's perceptron over the 256-column input. -/
theorem mlp_user (h : FVec Ideal S50000x256 .f32) (w1 : FVec Ideal S256x256 .f32) (b1 : FVec Ideal S256 .f32) (w2 : FVec Ideal S256x128 .f32)
    (b2 : FVec Ideal S128 .f32) (hc1 : S256.ShapeCasts S1x256) (hc2 : S128.ShapeCasts S1x128) :
    addf (Host.dotGeneral dot_S50000x256_S256x128_S50000x128_1_0_0_1_n_n none
          (maximumf (addf (Host.dotGeneral dot_S50000x256_S256x256_S50000x256_1_0_0_1_n_n none h w1)
              (broadcastInDim S50000x256 ![0, 1] bcast_S1x256_S50000x256_0_1 (broadcastInDim S1x256 ![1] bcast_S256_S1x256_1 b1)))
            (broadcastInDim S50000x256 ![] bcast_S_S50000x256 (constant S_ .f32 0x00000000#32))) w2)
        (broadcastInDim S50000x128 ![0, 1] bcast_S1x128_S50000x128_0_1 (broadcastInDim S1x128 ![1] bcast_S128_S1x128_1 b2))
      = mlp (M := 50000) (K := 256) (H := 256) (N := 128) h w1 (shapeCast S1x256 b1 hc1) w2 (shapeCast S1x128 b2 hc2) := by
  rw [show broadcastInDim S1x256 ![1] bcast_S256_S1x256_1 b1 = shapeCast S1x256 b1 hc1 from reshape_eq_broadcast (N := 256) b1 hc1 _,
    show broadcastInDim S1x128 ![1] bcast_S128_S1x128_1 b2 = shapeCast S1x128 b2 hc2 from reshape_eq_broadcast (N := 128) b2 hc2 _]
  exact host_mlp 50000 256 256 128 h w1 _ w2 _ _ _ _

end Cert.ReferenceIdeal.RefValue

end
-- ==== Proof.Bridge.lean ====
/-
  The two programs compute one function. Each result is a two-layer perceptron of a matrix that puts the scaled target
  features beside the messages aggregated along the edges, and the messages are rows of an affine projection of the source
  features, gathered at the edges' sources and summed into the edges' targets. The kernel computes the two projections and the
  two perceptrons block by block and leaves the gather, the sum and the concatenation to the host; the reference does all of
  it on the host. The region arrays are the specification's layers of the arrays the regions find; those arrays are the
  launch memory walked through the host operations; the reference's run is the same layers by the host's spelling; and the
  operations between the layers are the same operations on both sides, kept as one opaque function each.
-/
import proofs.«130959_j20590073217561_1_alg».proof.Defs
import proofs.«130959_j20590073217561_1_alg».proof.Proof.Gen.Kernel.Frame
import proofs.«130959_j20590073217561_1_alg».proof.Proof.Gen.KernelIdeal.Frame
import proofs.«130959_j20590073217561_1_alg».proof.Proof.Gen.ReferenceIdeal.Run
import proofs.«130959_j20590073217561_1_alg».proof.Proof.Gen.Pre_finite_inputs
import proofs.«130959_j20590073217561_1_alg».proof.Proof.KRun
import proofs.«130959_j20590073217561_1_alg».proof.Proof.ProjUser
import proofs.«130959_j20590073217561_1_alg».proof.Proof.ProjTx
import proofs.«130959_j20590073217561_1_alg».proof.Proof.MlpTx
import proofs.«130959_j20590073217561_1_alg».proof.Proof.MlpUser
import proofs.«130959_j20590073217561_1_alg».proof.Proof.RefValue

noncomputable section

namespace Cert.Bridge

open Idealize.ShloMosaic Idealize.ShloMosaic.TcCoe Idealize.SL.Sem Cert.Gin

/-- The updated user rows: the perceptron of the scaled user features beside the transaction messages summed along the
    transaction-to-user edges, the messages rows of the affine projection of the transaction features. -/
def outUser (xu : Vec Ideal Cert.KernelIdeal.S50000x128 .f32) (xt : Vec Ideal Cert.KernelIdeal.S50000x64 .f32)
    (Etu : Vec Ideal Cert.KernelIdeal.S2x600000 .i32) (Wt : Vec Ideal Cert.KernelIdeal.S64x128 .f32) (bt : Vec Ideal Cert.KernelIdeal.S128 .f32)
    (etu : Vec Ideal Cert.KernelIdeal.S_ .f32) (W1u : Vec Ideal Cert.KernelIdeal.S256x256 .f32) (b1u : Vec Ideal Cert.KernelIdeal.S256 .f32)
    (W2u : Vec Ideal Cert.KernelIdeal.S256x128 .f32) (b2u : Vec Ideal Cert.KernelIdeal.S128 .f32) : Mat 50000 128 :=
  mlp (M := 50000) (K := 256) (H := 256) (N := 128)
    (Cert.KernelIdeal.KRun.hcat128 etu xu (Cert.KernelIdeal.KRun.edgeAgg
      (affine (M := 50000) (K := 64) (N := 128) xt Wt (shapeCast Cert.KernelIdeal.S1x128 bt Cert.KernelIdeal.Facts₀.shapeCasts_S128_S1x128)) Etu))
    W1u (shapeCast Cert.KernelIdeal.S1x256 b1u Cert.KernelIdeal.Facts₀.shapeCasts_S256_S1x256)
    W2u (shapeCast Cert.KernelIdeal.S1x128 b2u Cert.KernelIdeal.Facts₀.shapeCasts_S128_S1x128)

/-- The updated transaction rows: the same with the two node kinds exchanged. -/
def outTx (xt : Vec Ideal Cert.KernelIdeal.S50000x64 .f32) (xu : Vec Ideal Cert.KernelIdeal.S50000x128 .f32)
    (Eut : Vec Ideal Cert.KernelIdeal.S2x600000 .i32) (Wu : Vec Ideal Cert.KernelIdeal.S128x128 .f32) (bu : Vec Ideal Cert.KernelIdeal.S128 .f32)
    (eut : Vec Ideal Cert.KernelIdeal.S_ .f32) (W1t : Vec Ideal Cert.KernelIdeal.S192x256 .f32) (b1t : Vec Ideal Cert.KernelIdeal.S256 .f32)
    (W2t : Vec Ideal Cert.KernelIdeal.S256x128 .f32) (b2t : Vec Ideal Cert.KernelIdeal.S128 .f32) : Mat 50000 128 :=
  mlp (M := 50000) (K := 192) (H := 256) (N := 128)
    (Cert.KernelIdeal.KRun.hcat64 eut xt (Cert.KernelIdeal.KRun.edgeAgg
      (affine (M := 50000) (K := 128) (N := 128) xu Wu (shapeCast Cert.KernelIdeal.S1x128 bu Cert.KernelIdeal.Facts₀.shapeCasts_S128_S1x128)) Eut))
    W1t (shapeCast Cert.KernelIdeal.S1x256 b1t Cert.KernelIdeal.Facts₀.shapeCasts_S256_S1x256)
    W2t (shapeCast Cert.KernelIdeal.S1x128 b2t Cert.KernelIdeal.Facts₀.shapeCasts_S128_S1x128)

/-! ## The kernel's side -/

section Kernel
open Cert.KernelIdeal Cert.KernelIdeal.Gen

variable (m : (ℓ : Loc nD τ sig) → Buf (Elt Ideal) ℓ) (ρ : Dev nD → PrngReg)

/-- The kernel's user result: the last region's array is the perceptron of what it finds, which is the launch memory
    walked through the host operations and the second region's array, the affine projection of what that region finds. -/
theorem kernel_user (c : Dev nD) : W8 m ρ c (Proc.devRef .tc main_v45)
    = outUser (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17)) := by
  rw [KRun.out_user, MlpUser.array (V7 m ρ) c, KRun.V7_v42, KRun.V7_arg14, KRun.V7_v43, KRun.V7_arg16, KRun.V7_v44,
    ProjTx.array (V3 m ρ) c, KRun.V3_arg1, KRun.V3_arg6, KRun.V3_v2]
  rfl

/-- The kernel's transaction result, the same way through the third and the first region. -/
theorem kernel_tx (c : Dev nD) : W8 m ρ c (Proc.devRef .tc main_v38)
    = outTx (m ((c.tc : Thread nD τ).loc main_arg1)) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) := by
  rw [KRun.out_tx, MlpTx.array (V5 m ρ) c, KRun.V5_v35, KRun.V5_arg10, KRun.V5_v36, KRun.V5_arg12, KRun.V5_v37,
    ProjUser.array (V1 m ρ) c, KRun.V1_arg0, KRun.V1_arg4, KRun.V1_v0]
  rfl

end Kernel

/-! ## The reference's side -/

section Reference
open Cert.ReferenceIdeal Cert.ReferenceIdeal.Facts₀

/-- The reference's user result, as its run composes it, is the same function of the arguments. -/
theorem ref_user (xu : FVec Ideal S50000x128 .f32) (xt : FVec Ideal S50000x64 .f32) (Etu : Vec Ideal S2x600000 .i32)
    (Wt : FVec Ideal S64x128 .f32) (bt : FVec Ideal S128 .f32) (etu : FVec Ideal S_ .f32) (W1u : FVec Ideal S256x256 .f32)
    (b1u : FVec Ideal S256 .f32) (W2u : FVec Ideal S256x128 .f32) (b2u : FVec Ideal S128 .f32) :
    addf (Host.dotGeneral dot_S50000x256_S256x128_S50000x128_1_0_0_1_n_n none (maximumf (addf (Host.dotGeneral dot_S50000x256_S256x256_S50000x256_1_0_0_1_n_n none (concatenate S50000x256 1 [⟨S50000x128, (mulf (broadcastInDim S50000x128 ![] bcast_S_S50000x128 (addf (constant S_ .f32 0x3F800000#32) etu)) xu)⟩, ⟨S50000x128, (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] Etu slices_S2x600000_S1x600000_1_0) shapeCasts_S1x600000_S600000)) (Host.gather gather_S50000x128_S600000x1_S600000x128_1_0_n_n_0_1_1128 (addf (Host.dotGeneral dot_S50000x64_S64x128_S50000x128_1_0_0_1_n_n none xt Wt) (broadcastInDim S50000x128 ![0, 1] bcast_S1x128_S50000x128_0_1 (broadcastInDim S1x128 ![1] bcast_S128_S1x128_1 bt))) (broadcastInDim S600000x1 ![0] bcast_S600000_S600000x1_0 (select (cmpi .slt (shapeCast _ (extractStridedSlice S1x600000 ![0, 0] Etu slices_S2x600000_S1x600000_0_0) shapeCasts_S1x600000_S600000) (broadcastInDim S600000 ![] bcast_S_S600000 (constantI S_ 32 0#32))) (addi (shapeCast _ (extractStridedSlice S1x600000 ![0, 0] Etu slices_S2x600000_S1x600000_0_0) shapeCasts_S1x600000_S600000) (broadcastInDim S600000 ![] bcast_S_S600000 (constantI S_ 32 50000#32))) (shapeCast _ (extractStridedSlice S1x600000 ![0, 0] Etu slices_S2x600000_S1x600000_0_0) shapeCasts_S1x600000_S600000)))))⟩] concatenates_S50000x128_S50000x128_S50000x256_d1) W1u) (broadcastInDim S50000x256 ![0, 1] bcast_S1x256_S50000x256_0_1 (broadcastInDim S1x256 ![1] bcast_S256_S1x256_1 b1u))) (broadcastInDim S50000x256 ![] bcast_S_S50000x256 (constant S_ .f32 0x00000000#32))) W2u) (broadcastInDim S50000x128 ![0, 1] bcast_S1x128_S50000x128_0_1 (broadcastInDim S1x128 ![1] bcast_S128_S1x128_1 b2u))
      = outUser xu xt Etu Wt bt etu W1u b1u W2u b2u := by
  rw [RefValue.affine_tx xt Wt bt Cert.KernelIdeal.Facts₀.shapeCasts_S128_S1x128,
    RefValue.mlp_user _ W1u b1u W2u b2u Cert.KernelIdeal.Facts₀.shapeCasts_S256_S1x256 Cert.KernelIdeal.Facts₀.shapeCasts_S128_S1x128]
  rfl

/-- The reference's transaction result likewise. -/
theorem ref_tx (xt : FVec Ideal S50000x64 .f32) (xu : FVec Ideal S50000x128 .f32) (Eut : Vec Ideal S2x600000 .i32)
    (Wu : FVec Ideal S128x128 .f32) (bu : FVec Ideal S128 .f32) (eut : FVec Ideal S_ .f32) (W1t : FVec Ideal S192x256 .f32)
    (b1t : FVec Ideal S256 .f32) (W2t : FVec Ideal S256x128 .f32) (b2t : FVec Ideal S128 .f32) :
    addf (Host.dotGeneral dot_S50000x256_S256x128_S50000x128_1_0_0_1_n_n none (maximumf (addf (Host.dotGeneral dot_S50000x192_S192x256_S50000x256_1_0_0_1_n_n none (concatenate S50000x192 1 [⟨S50000x64, (mulf (broadcastInDim S50000x64 ![] bcast_S_S50000x64 (addf (constant S_ .f32 0x3F800000#32) eut)) xt)⟩, ⟨S50000x128, (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] Eut slices_S2x600000_S1x600000_1_0) shapeCasts_S1x600000_S600000)) (Host.gather gather_S50000x128_S600000x1_S600000x128_1_0_n_n_0_1_1128 (addf (Host.dotGeneral dot_S50000x128_S128x128_S50000x128_1_0_0_1_n_n none xu Wu) (broadcastInDim S50000x128 ![0, 1] bcast_S1x128_S50000x128_0_1 (broadcastInDim S1x128 ![1] bcast_S128_S1x128_1 bu))) (broadcastInDim S600000x1 ![0] bcast_S600000_S600000x1_0 (select (cmpi .slt (shapeCast _ (extractStridedSlice S1x600000 ![0, 0] Eut slices_S2x600000_S1x600000_0_0) shapeCasts_S1x600000_S600000) (broadcastInDim S600000 ![] bcast_S_S600000 (constantI S_ 32 0#32))) (addi (shapeCast _ (extractStridedSlice S1x600000 ![0, 0] Eut slices_S2x600000_S1x600000_0_0) shapeCasts_S1x600000_S600000) (broadcastInDim S600000 ![] bcast_S_S600000 (constantI S_ 32 50000#32))) (shapeCast _ (extractStridedSlice S1x600000 ![0, 0] Eut slices_S2x600000_S1x600000_0_0) shapeCasts_S1x600000_S600000)))))⟩] concatenates_S50000x64_S50000x128_S50000x192_d1) W1t) (broadcastInDim S50000x256 ![0, 1] bcast_S1x256_S50000x256_0_1 (broadcastInDim S1x256 ![1] bcast_S256_S1x256_1 b1t))) (broadcastInDim S50000x256 ![] bcast_S_S50000x256 (constant S_ .f32 0x00000000#32))) W2t) (broadcastInDim S50000x128 ![0, 1] bcast_S1x128_S50000x128_0_1 (broadcastInDim S1x128 ![1] bcast_S128_S1x128_1 b2t))
      = outTx xt xu Eut Wu bu eut W1t b1t W2t b2t := by
  rw [RefValue.affine_user xu Wu bu Cert.KernelIdeal.Facts₀.shapeCasts_S128_S1x128,
    RefValue.mlp_tx _ W1t b1t W2t b2t Cert.KernelIdeal.Facts₀.shapeCasts_S256_S1x256 Cert.KernelIdeal.Facts₀.shapeCasts_S128_S1x128]
  rfl

end Reference

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with each result at the same function of the arguments, which agree. -/
theorem algebraic : Cert.algebraic_KernelIdeal_ReferenceIdeal := by
  intro m ρ m' ρ' _ hagree
  refine ⟨fun c => outUser (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => outTx (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (kernel_user m ρ c), (h c).2.1.trans (kernel_tx m ρ c), (h c).2.2⟩)
      (Cert.KernelIdeal.KRun.run_results m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17⟩ := hagree c
    refine ⟨?_, ?_, (h c).2.2⟩
    · refine (h c).1.trans ((ref_user (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans ?_)
      rw [h0, h1, h3, h6, h7, h9, h14, h15, h16, h17]
    · refine (h c).2.1.trans ((ref_tx (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans ?_)
      rw [h1, h0, h2, h4, h5, h8, h10, h11, h12, h13]

end Cert.Bridge

end
-- ==== Proof.lean ====
/-
  Two node kinds, users and transactions, exchange messages along two sets of 600000 edges. For each direction the source
  features pass through an affine projection to 128 columns; every edge carries its source's projected row to its target,
  where the rows are summed; the target's own features, scaled by one plus a learned scalar, are put beside the sum; and a
  two-layer perceptron with a positive part between the layers gives the target's new 128 columns.

  The kernel runs the two projections and the two perceptrons as four grids of 25 blocks of 2000 rows, its matrix products
  on operands rounded to a shorter float format, and leaves the gathering, the summing and the joining to the host; the
  reference does everything on the host. On the extended reals a change of format is the identity and a matrix product is
  the sum over the contracted coordinate, so a block of rows of a layer is the layer of the block of rows, the blocks tile
  the 50000 rows, and each region's array is the layer of the whole matrix. The operations between the layers are the
  same on both sides. Both programs therefore end with each result at one function of the arguments (Proof/Bridge.lean).
  Nothing the idealization rewrote needs a statement, and the frames are the generated ones.
-/
import proofs.«130959_j20590073217561_1_alg».proof.Defs
import proofs.«130959_j20590073217561_1_alg».proof.Proof.Gen.Kernel
import proofs.«130959_j20590073217561_1_alg».proof.Proof.Gen.KernelIdeal
import proofs.«130959_j20590073217561_1_alg».proof.Proof.Gen.ReferenceIdeal
import proofs.«130959_j20590073217561_1_alg».proof.Proof.Gen.Pre_finite_inputs
import proofs.«130959_j20590073217561_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Bridge.frame_kernel, Cert.Bridge.frame_kernelIdeal, Cert.Bridge.frame_referenceIdeal, trivial, Cert.Bridge.algebraic⟩

end Cert.Proof

end
